-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x500000 : Shape := ⟨2, ![2, 500000]⟩
abbrev S500000x64 : Shape := ⟨2, ![500000, 64]⟩
abbrev S50000x2 : Shape := ⟨2, ![50000, 2]⟩
abbrev S1x64 : Shape := ⟨2, ![1, 64]⟩
abbrev S276x64 : Shape := ⟨2, ![276, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S50000x2 : S_.BroadcastsInDim S50000x2 (![] : Fin 0 → Fin S50000x2.rank)
  reducesTo_S50000x2_S_d0_1 : S50000x2.ReducesTo [0, 1] S_
  bcast_S_S1x64 : S_.BroadcastsInDim S1x64 (![] : Fin 0 → Fin S1x64.rank)
  reducesTo_S1x64_S_d0_1 : S1x64.ReducesTo [0, 1] S_
  bcast_S_S276x64 : S_.BroadcastsInDim S276x64 (![] : Fin 0 → Fin S276x64.rank)
  reducesTo_S276x64_S_d0_1 : S276x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S1x64 .f32) (main_arg6 : FVec F S276x64 .f32) (main_arg7 : FVec F S64 .f32) (main_arg8 : FVec F S64x1 .f32) (main_arg9 : FVec F S1 .f32) (main_v13 : IVec S_ 1) (main_v16 : IVec S500000x64 1) : IVec S_ 1 :=
  let main_c_5 : IVec S_ 1 := constantI S_ 1 1#1
  let main_v17 : IVec S_ 1 := (fun x v => Host.reduce IntOp.andi x v reducesTo_S500000x64_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S276x64 .f32 := Host.absf main_arg6
  let main_cst_8 : FVec F S_ .f32 := constant S_ .f32 0x7F800000#32
  let main_v25 : FVec F S276x64 .f32 := broadcastInDim S276x64 ![] bcast_S_S276x64 main_cst_8
  let main_v26 : IVec S276x64 1 := cmpf .olt main_v24 main_v25
  let main_c_9 : IVec S_ 1 := constantI S_ 1 1#1
  let main_v27 : IVec S_ 1 := (fun x v => Host.reduce IntOp.andi x v reducesTo_S276x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x500000 32) (main_arg2 : FVec F S500000x64 .f32) (main_arg3 : FVec F S50000x2 .f32) (main_arg4 : FVec F S500000x64 .f32) (main_arg5 : FVec F S1x64 .f32) (main_arg6 : FVec F S276x64 .f32) (main_arg7 : FVec F S64 .f32) (main_arg8 : FVec F S64x1 .f32) (main_arg9 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S50000x2 .f32 := Host.absf main_arg3
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S500000x64 .f32 := Host.absf main_arg4
  let main_cst_4 : FVec F S_ .f32 := constant S_ .f32 0x7F800000#32
  let main_v15 : FVec F S500000x64 .f32 := broadcastInDim S500000x64 ![] bcast_S_S500000x64 main_cst_4
  let main_v16 : IVec S500000x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x500000 : Shape := ⟨2, ![2, 500000]⟩
abbrev S500000x64 : Shape := ⟨2, ![500000, 64]⟩
abbrev S50000x2 : Shape := ⟨2, ![50000, 2]⟩
abbrev S1x64 : Shape := ⟨2, ![1, 64]⟩
abbrev S276x64 : Shape := ⟨2, ![276, 64]⟩
abbrev S64 : Shape := ⟨1, ![64]⟩
abbrev S64x1 : Shape := ⟨2, ![64, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S50000 : Shape := ⟨1, ![50000]⟩
abbrev S50000x1 : Shape := ⟨2, ![50000, 1]⟩
abbrev S500000x1 : Shape := ⟨2, ![500000, 1]⟩
abbrev S500000x2 : Shape := ⟨2, ![500000, 2]⟩
abbrev S50000x74 : Shape := ⟨2, ![50000, 74]⟩
abbrev S500000x74 : Shape := ⟨2, ![500000, 74]⟩
abbrev S64x64 : Shape := ⟨2, ![64, 64]⟩
abbrev S74x64 : Shape := ⟨2, ![74, 64]⟩
abbrev S1x1 : Shape := ⟨2, ![1, 1]⟩
abbrev S503808x64 : Shape := ⟨2, ![503808, 64]⟩
abbrev S503808x74 : Shape := ⟨2, ![503808, 74]⟩
abbrev S503808x1 : Shape := ⟨2, ![503808, 1]⟩
abbrev S4096x64 : Shape := ⟨2, ![4096, 64]⟩
abbrev S4096x74 : Shape := ⟨2, ![4096, 74]⟩
abbrev S4096x1 : Shape := ⟨2, ![4096, 1]⟩
abbrev S4096 : Shape := ⟨1, ![4096]⟩

abbrev nBuf : Space → Nat
  | .hbm => 169
  | .vmem => 17
  | .smem => 0
  | _ => 0

abbrev hbmTy0_0 (i : Nat) : BufTy := match i % 128 with
  | 0 => ⟨S50000x64, .f32⟩
  | 1 => ⟨S2x500000, .i32⟩
  | 2 => ⟨S500000x64, .f32⟩
  | 3 => ⟨S50000x2, .f32⟩
  | 4 => ⟨S500000x64, .f32⟩
  | 5 => ⟨S1x64, .f32⟩
  | 6 => ⟨S276x64, .f32⟩
  | 7 => ⟨S64, .f32⟩
  | 8 => ⟨S64x1, .f32⟩
  | 9 => ⟨S1, .f32⟩
  | 10 => ⟨S1x500000, .i32⟩
  | 11 => ⟨S500000, .i32⟩
  | 12 => ⟨S1x500000, .i32⟩
  | 13 => ⟨S500000, .i32⟩
  | 14 => ⟨S_, .f32⟩
  | 15 => ⟨S50000x64, .f32⟩
  | 16 => ⟨S50000x64, .i1⟩
  | 17 => ⟨S_, .i1⟩
  | 18 => ⟨S50000, .i1⟩
  | 19 => ⟨S50000x1, .i1⟩
  | 20 => ⟨S64, .f32⟩
  | 21 => ⟨S50000x64, .i1⟩
  | 22 => ⟨S50000x64, .f32⟩
  | 23 => ⟨S50000x64, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x2, .f32⟩
  | 33 => ⟨S_, .f32⟩
  | 34 => ⟨S50000x2, .f32⟩
  | 35 => ⟨S500000x1, .i32⟩
  | 36 => ⟨S50000x2, .f32⟩
  | 37 => ⟨S_, .f32⟩
  | 38 => ⟨S500000, .f32⟩
  | 39 => ⟨S_, .f32⟩
  | 40 => ⟨S50000, .f32⟩
  | 41 => ⟨S500000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x2, .f32⟩
  | 48 => ⟨S50000x2, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x2, .f32⟩
  | 58 => ⟨S_, .f32⟩
  | 59 => ⟨S50000x2, .f32⟩
  | 60 => ⟨S500000x1, .i32⟩
  | 61 => ⟨S50000x2, .f32⟩
  | 62 => ⟨S_, .f32⟩
  | 63 => ⟨S500000, .f32⟩
  | 64 => ⟨S_, .f32⟩
  | 65 => ⟨S50000, .f32⟩
  | 66 => ⟨S500000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x2, .f32⟩
  | 73 => ⟨S50000x2, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x2, .f32⟩
  | 83 => ⟨S_, .f32⟩
  | 84 => ⟨S50000x2, .f32⟩
  | 85 => ⟨S500000x1, .i32⟩
  | 86 => ⟨S50000x2, .f32⟩
  | 87 => ⟨S_, .f32⟩
  | 88 => ⟨S500000, .f32⟩
  | 89 => ⟨S_, .f32⟩
  | 90 => ⟨S50000, .f32⟩
  | 91 => ⟨S500000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x2, .f32⟩
  | 98 => ⟨S50000x2, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x2, .f32⟩
  | 108 => ⟨S_, .f32⟩
  | 109 => ⟨S50000x2, .f32⟩
  | 110 => ⟨S500000x1, .i32⟩
  | 111 => ⟨S50000x2, .f32⟩
  | 112 => ⟨S_, .f32⟩
  | 113 => ⟨S500000, .f32⟩
  | 114 => ⟨S_, .f32⟩
  | 115 => ⟨S50000, .f32⟩
  | 116 => ⟨S500000x1, .i32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x2, .f32⟩
  | 123 => ⟨S50000x2, .f32⟩
  | 124 => ⟨S50000x74, .f32⟩
  | 125 => ⟨S_, .i32⟩
  | 126 => ⟨S500000, .i32⟩
  | 127 => ⟨S500000, .i1⟩
  | _ => ⟨S50000x64, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x74, .f32⟩
  | 6 => ⟨S500000x74, .bf16⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x74, .f32⟩
  | 16 => ⟨S500000x74, .bf16⟩
  | 17 => ⟨S276x64, .bf16⟩
  | 18 => ⟨S64x64, .bf16⟩
  | 19 => ⟨S74x64, .bf16⟩
  | 20 => ⟨S64x64, .bf16⟩
  | 21 => ⟨S74x64, .bf16⟩
  | 22 => ⟨S1x64, .f32⟩
  | 23 => ⟨S64, .f32⟩
  | 24 => ⟨S1x64, .f32⟩
  | 25 => ⟨S1x1, .f32⟩
  | 26 => ⟨S_, .i32⟩
  | 27 => ⟨S_, .f32⟩
  | 28 => ⟨S503808x64, .f32⟩
  | 29 => ⟨S_, .i32⟩
  | 30 => ⟨S_, .bf16⟩
  | 31 => ⟨S503808x74, .bf16⟩
  | 32 => ⟨S_, .i32⟩
  | 33 => ⟨S_, .f32⟩
  | 34 => ⟨S503808x64, .f32⟩
  | 35 => ⟨S_, .i32⟩
  | 36 => ⟨S_, .bf16⟩
  | 37 => ⟨S503808x74, .bf16⟩
  | 38 => ⟨S503808x1, .f32⟩
  | 39 => ⟨S500000x1, .f32⟩
  | 40 => ⟨S500000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x74, .bf16⟩
  | .local _ .vmem, ⟨3, _⟩ => ⟨S4096x74, .bf16⟩
  | .local _ .vmem, ⟨4, _⟩ => ⟨S4096x64, .f32⟩
  | .local _ .vmem, ⟨5, _⟩ => ⟨S4096x64, .f32⟩
  | .local _ .vmem, ⟨6, _⟩ => ⟨S4096x74, .bf16⟩
  | .local _ .vmem, ⟨7, _⟩ => ⟨S4096x74, .bf16⟩
  | .local _ .vmem, ⟨8, _⟩ => ⟨S64x64, .bf16⟩
  | .local _ .vmem, ⟨9, _⟩ => ⟨S74x64, .bf16⟩
  | .local _ .vmem, ⟨10, _⟩ => ⟨S64x64, .bf16⟩
  | .local _ .vmem, ⟨11, _⟩ => ⟨S74x64, .bf16⟩
  | .local _ .vmem, ⟨12, _⟩ => ⟨S1x64, .f32⟩
  | .local _ .vmem, ⟨13, _⟩ => ⟨S1x64, .f32⟩
  | .local _ .vmem, ⟨14, _⟩ => ⟨S1x1, .f32⟩
  | .local _ .vmem, ⟨15, _⟩ => ⟨S4096x1, .f32⟩
  | .local _ .vmem, ⟨16, _⟩ => ⟨S4096x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_17 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_18 : Ref sig .tc := ⟨.hbm, 99, rfl⟩
abbrev main_v67 : Ref sig .tc := ⟨.hbm, 100, rfl⟩
abbrev main_v68 : Ref sig .tc := ⟨.hbm, 101, rfl⟩
abbrev main_c_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_20 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_21 : Ref sig .tc := ⟨.hbm, 112, rfl⟩
abbrev main_v77 : Ref sig .tc := ⟨.hbm, 113, rfl⟩
abbrev main_cst_22 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_23 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_24 : Ref sig .tc := ⟨.hbm, 125, rfl⟩
abbrev main_v87 : Ref sig .tc := ⟨.hbm, 126, rfl⟩
abbrev main_v88 : Ref sig .tc := ⟨.hbm, 127, rfl⟩
abbrev main_c_25 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_26 : Ref sig .tc := ⟨.hbm, 135, rfl⟩
abbrev main_v95 : Ref sig .tc := ⟨.hbm, 136, rfl⟩
abbrev main_v96 : Ref sig .tc := ⟨.hbm, 137, rfl⟩
abbrev main_c_27 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_28 : Ref sig .tc := ⟨.hbm, 154, rfl⟩
abbrev main_call1_v0 : Ref sig .tc := ⟨.hbm, 155, rfl⟩
abbrev main_v112 : Ref sig .tc := ⟨.hbm, 156, rfl⟩
abbrev main_c_29 : Ref sig .tc := ⟨.hbm, 157, rfl⟩
abbrev main_call2_v0 : Ref sig .tc := ⟨.hbm, 158, rfl⟩
abbrev main_v113 : Ref sig .tc := ⟨.hbm, 159, rfl⟩
abbrev main_c_30 : Ref sig .tc := ⟨.hbm, 160, rfl⟩
abbrev main_call3_v0 : Ref sig .tc := ⟨.hbm, 161, rfl⟩
abbrev main_v114 : Ref sig .tc := ⟨.hbm, 162, rfl⟩
abbrev main_c_31 : Ref sig .tc := ⟨.hbm, 163, rfl⟩
abbrev main_call4_v0 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x74 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x74 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S74x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S74x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  shapeCasts_S1x64_S64 : S1x64.ShapeCasts S64
  bcast_S50000x1_S50000x64_0_1 : S50000x1.BroadcastsInDim S50000x64 (![0, 1] : Fin 2 → Fin S50000x64.rank)
  bcast_S64_S50000x64_1 : S64.BroadcastsInDim S50000x64 (![1] : Fin 1 → Fin S50000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x2 : S_.BroadcastsInDim S50000x2 (![] : Fin 0 → Fin S50000x2.rank)
  bcast_S_S50000 : S_.BroadcastsInDim S50000 (![] : Fin 0 → Fin S50000.rank)
  bcast_S50000x1_S50000x2_0_1 : S50000x1.BroadcastsInDim S50000x2 (![0, 1] : Fin 2 → Fin S50000x2.rank)
  concatenates_S50000x64_S50000x2_S50000x2_S50000x2_S50000x2_S50000x2_S50000x74_d1 : Shape.Concatenates [S50000x64, S50000x2, S50000x2, S50000x2, S50000x2, S50000x2] S50000x74 1
  bitsLt_bf16_f32 : FTy.bits .bf16 < FTy.bits .f32
  slices_S276x64_S64x64_0_0 : S276x64.Slices ![0, 0] S64x64
  slices_S276x64_S74x64_64_0 : S276x64.Slices ![64, 0] S74x64
  slices_S276x64_S64x64_138_0 : S276x64.Slices ![138, 0] S64x64
  slices_S276x64_S74x64_202_0 : S276x64.Slices ![202, 0] S74x64
  shapeCasts_S64_S1x64 : S64.ShapeCasts S1x64
  shapeCasts_S64x1_S64 : S64x1.ShapeCasts S64
  bcast_S64_S1x64_1 : S64.BroadcastsInDim S1x64 (![1] : Fin 1 → Fin S1x64.rank)
  shapeCasts_S1_S1x1 : S1.ShapeCasts S1x1
  pads_S500000x64_S503808x64_038080_000 : S500000x64.Pads (![0, 0] : Fin 2 → Nat) ![3808, 0] ![0, 0] S503808x64
  pads_S500000x74_S503808x74_038080_000 : S500000x74.Pads (![0, 0] : Fin 2 → Nat) ![3808, 0] ![0, 0] S503808x74
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x74_S4096x74_0_0 : ∀ a, (![0, 0] : Fin 2 → Nat) a + S4096x74.size a ≤ S4096x74.size a
  h_S4096x74 : 0 < S4096x74.numel
  shapeCasts_S4096x74_S4096x74 : S4096x74.ShapeCasts S4096x74
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S74x64_S74x64_0_0 : ∀ a, (![0, 0] : Fin 2 → Nat) a + S74x64.size a ≤ S74x64.size a
  h_S74x64 : 0 < S74x64.numel
  shapeCasts_S74x64_S74x64 : S74x64.ShapeCasts S74x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S503808x1_S500000x1_0_0 : S503808x1.Slices ![0, 0] S500000x1
  shapeCasts_S500000x1_S500000 : S500000x1.ShapeCasts S500000
  gather_S50000x2_S500000x1_S500000x2_1_0_n_n_0_1_12_wf : GatherDims.WF S50000x2 S500000x1 S500000x2 [1] [0] [] [0] [] 1 ![1, 2]
  scatter_S50000x2_S500000x1_S500000x2_1_0_0_1_wf : ScatterDims.WF S50000x2 S500000x1 S500000x2 [1] [0] [0] 1
  scatter_S50000_S500000x1_S500000_n_0_0_1_wf : ScatterDims.WF S50000 S500000x1 S500000 [] [0] [0] 1
  gather_S50000x74_S500000x1_S500000x74_1_0_n_n_0_1_174_wf : GatherDims.WF S50000x74 S500000x1 S500000x74 [1] [0] [] [0] [] 1 ![1, 74]
  dot_S4096x64_S64x64_S4096x64_1_0_0_1_n_n_wf : DotDims.WF S4096x64 S64x64 S4096x64 [1] [0] [0] [1] [] []
  dot_S4096x74_S74x64_S4096x64_1_0_0_1_n_n_wf : DotDims.WF S4096x74 S74x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S503808x64.size a
  hwx0_0 : ∀ i : grid0.Coords, EltTy.bits .f32 = 32 ∨ (Rect.block (s := S503808x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x74.size a ≤ S503808x74.size a
  hwx0_1 : ∀ i : grid0.Coords, EltTy.bits .bf16 = 32 ∨ (Rect.block (s := S503808x74) S4096x74.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S503808x64.size a
  hwx0_2 : ∀ i : grid0.Coords, EltTy.bits .f32 = 32 ∨ (Rect.block (s := S503808x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x74.size a ≤ S503808x74.size a
  hwx0_3 : ∀ i : grid0.Coords, EltTy.bits .bf16 = 32 ∨ (Rect.block (s := S503808x74) S4096x74.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S74x64.size a ≤ S74x64.size a
  hwx0_5 : ∀ i : grid0.Coords, EltTy.bits .bf16 = 32 ∨ (Rect.block (s := S74x64) S74x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S74x64.size a ≤ S74x64.size a
  hwx0_7 : ∀ i : grid0.Coords, EltTy.bits .bf16 = 32 ∨ (Rect.block (s := S74x64) S74x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S503808x1.size a
  hwx0_11 : ∀ i : grid0.Coords, EltTy.bits .f32 = 32 ∨ (Rect.block (s := S503808x1) S4096x1.size (cc0_transform_11 i) (hinb0_11 i)).WholeWords (EltTy.packing .f32)

variable [Facts₀]

def gather_S50000x2_S500000x1_S500000x2_1_0_n_n_0_1_12 : GatherDims S50000x2 S500000x1 S500000x2 where
  offsetDims := [1]
  collapsedSliceDims := [0]
  operandBatchingDims := []
  startIndicesBatchingDims := []
  startIndexMap := [0]
  indexVectorDim := 1
  sliceSizes := ![1, 2]
  wf := gather_S50000x2_S500000x1_S500000x2_1_0_n_n_0_1_12_wf
def scatter_S50000x2_S500000x1_S500000x2_1_0_0_1 : ScatterDims S50000x2 S500000x1 S500000x2 where
  updateWindowDims := [1]
  insertedWindowDims := [0]
  scatterDimsToOperandDims := [0]
  indexVectorDim := 1
  wf := scatter_S50000x2_S500000x1_S500000x2_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x74_S500000x1_S500000x74_1_0_n_n_0_1_174 : GatherDims S50000x74 S500000x1 S500000x74 where
  offsetDims := [1]
  collapsedSliceDims := [0]
  operandBatchingDims := []
  startIndicesBatchingDims := []
  startIndexMap := [0]
  indexVectorDim := 1
  sliceSizes := ![1, 74]
  wf := gather_S50000x74_S500000x1_S500000x74_1_0_n_n_0_1_174_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x74_S74x64_S4096x64_1_0_0_1_n_n : DotDims S4096x74 S74x64 S4096x64 where
  lhsContracting := [1]
  rhsContracting := [0]
  lhsNonContracting := [0]
  rhsNonContracting := [1]
  lhsBatch := []
  rhsBatch := []
  wf := dot_S4096x74_S74x64_S4096x64_1_0_0_1_n_n_wf

abbrev win0_0 : Pipeline.Window sig grid0 :=
  Pipeline.Window.ofSpec (Memref.whole main_v112) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v113) S4096x74.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v114) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v115) S4096x74.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v104) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v105) S74x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v106) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v107) S74x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v108) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v110) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v111) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v116) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x500000 : Shape := ⟨2, ![2, 500000]⟩
abbrev S500000x64 : Shape := ⟨2, ![500000, 64]⟩
abbrev S50000x2 : Shape := ⟨2, ![50000, 2]⟩
abbrev S1x64 : Shape := ⟨2, ![1, 64]⟩
abbrev S276x64 : Shape := ⟨2, ![276, 64]⟩
abbrev S64 : Shape := ⟨1, ![64]⟩
abbrev S64x1 : Shape := ⟨2, ![64, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S50000 : Shape := ⟨1, ![50000]⟩
abbrev S50000x1 : Shape := ⟨2, ![50000, 1]⟩
abbrev S500000x1 : Shape := ⟨2, ![500000, 1]⟩
abbrev S500000x2 : Shape := ⟨2, ![500000, 2]⟩
abbrev S50000x74 : Shape := ⟨2, ![50000, 74]⟩
abbrev S500000x74 : Shape := ⟨2, ![500000, 74]⟩
abbrev S500000x276 : Shape := ⟨2, ![500000, 276]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S50000x64, .f32⟩
  | 1 => ⟨S2x500000, .i32⟩
  | 2 => ⟨S500000x64, .f32⟩
  | 3 => ⟨S50000x2, .f32⟩
  | 4 => ⟨S500000x64, .f32⟩
  | 5 => ⟨S1x64, .f32⟩
  | 6 => ⟨S276x64, .f32⟩
  | 7 => ⟨S64, .f32⟩
  | 8 => ⟨S64x1, .f32⟩
  | 9 => ⟨S1, .f32⟩
  | 10 => ⟨S1x500000, .i32⟩
  | 11 => ⟨S500000, .i32⟩
  | 12 => ⟨S1x500000, .i32⟩
  | 13 => ⟨S500000, .i32⟩
  | 14 => ⟨S_, .f32⟩
  | 15 => ⟨S50000x64, .f32⟩
  | 16 => ⟨S50000x64, .i1⟩
  | 17 => ⟨S_, .i1⟩
  | 18 => ⟨S50000, .i1⟩
  | 19 => ⟨S50000x1, .i1⟩
  | 20 => ⟨S64, .f32⟩
  | 21 => ⟨S50000x64, .i1⟩
  | 22 => ⟨S50000x64, .f32⟩
  | 23 => ⟨S50000x64, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x2, .f32⟩
  | 33 => ⟨S_, .f32⟩
  | 34 => ⟨S50000x2, .f32⟩
  | 35 => ⟨S500000x1, .i32⟩
  | 36 => ⟨S50000x2, .f32⟩
  | 37 => ⟨S_, .f32⟩
  | 38 => ⟨S500000, .f32⟩
  | 39 => ⟨S_, .f32⟩
  | 40 => ⟨S50000, .f32⟩
  | 41 => ⟨S500000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x2, .f32⟩
  | 48 => ⟨S50000x2, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x2, .f32⟩
  | 58 => ⟨S_, .f32⟩
  | 59 => ⟨S50000x2, .f32⟩
  | 60 => ⟨S500000x1, .i32⟩
  | 61 => ⟨S50000x2, .f32⟩
  | 62 => ⟨S_, .f32⟩
  | 63 => ⟨S500000, .f32⟩
  | 64 => ⟨S_, .f32⟩
  | 65 => ⟨S50000, .f32⟩
  | 66 => ⟨S500000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x2, .f32⟩
  | 73 => ⟨S50000x2, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x2, .f32⟩
  | 83 => ⟨S_, .f32⟩
  | 84 => ⟨S50000x2, .f32⟩
  | 85 => ⟨S500000x1, .i32⟩
  | 86 => ⟨S50000x2, .f32⟩
  | 87 => ⟨S_, .f32⟩
  | 88 => ⟨S500000, .f32⟩
  | 89 => ⟨S_, .f32⟩
  | 90 => ⟨S50000, .f32⟩
  | 91 => ⟨S500000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x2, .f32⟩
  | 98 => ⟨S50000x2, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x2, .f32⟩
  | 108 => ⟨S_, .f32⟩
  | 109 => ⟨S50000x2, .f32⟩
  | 110 => ⟨S500000x1, .i32⟩
  | 111 => ⟨S50000x2, .f32⟩
  | 112 => ⟨S_, .f32⟩
  | 113 => ⟨S500000, .f32⟩
  | 114 => ⟨S_, .f32⟩
  | 115 => ⟨S50000, .f32⟩
  | 116 => ⟨S500000x1, .i32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x2, .f32⟩
  | 123 => ⟨S50000x2, .f32⟩
  | 124 => ⟨S50000x74, .f32⟩
  | 125 => ⟨S_, .i32⟩
  | 126 => ⟨S500000, .i32⟩
  | 127 => ⟨S500000, .i1⟩
  | _ => ⟨S50000x64, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x74, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x74, .f32⟩
  | 15 => ⟨S500000x276, .f32⟩
  | 16 => ⟨S500000x64, .f32⟩
  | 17 => ⟨S1x64, .f32⟩
  | 18 => ⟨S500000x64, .f32⟩
  | 19 => ⟨S500000x64, .f32⟩
  | 20 => ⟨S_, .f32⟩
  | 21 => ⟨S500000x64, .f32⟩
  | 22 => ⟨S500000x64, .f32⟩
  | 23 => ⟨S500000x1, .f32⟩
  | 24 => ⟨S1x1, .f32⟩
  | 25 => ⟨S500000x1, .f32⟩
  | 26 => ⟨S500000x1, .f32⟩
  | 27 => ⟨S500000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_17 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_18 : Ref sig .tc := ⟨.hbm, 99, rfl⟩
abbrev main_v67 : Ref sig .tc := ⟨.hbm, 100, rfl⟩
abbrev main_v68 : Ref sig .tc := ⟨.hbm, 101, rfl⟩
abbrev main_c_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_20 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_21 : Ref sig .tc := ⟨.hbm, 112, rfl⟩
abbrev main_v77 : Ref sig .tc := ⟨.hbm, 113, rfl⟩
abbrev main_cst_22 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_23 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_24 : Ref sig .tc := ⟨.hbm, 125, rfl⟩
abbrev main_v87 : Ref sig .tc := ⟨.hbm, 126, rfl⟩
abbrev main_v88 : Ref sig .tc := ⟨.hbm, 127, rfl⟩
abbrev main_c_25 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_26 : Ref sig .tc := ⟨.hbm, 134, rfl⟩
abbrev main_v94 : Ref sig .tc := ⟨.hbm, 135, rfl⟩
abbrev main_v95 : Ref sig .tc := ⟨.hbm, 136, rfl⟩
abbrev main_c_27 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call1_cst : Ref sig .tc := ⟨.hbm, 148, rfl⟩
abbrev main_call1_v0 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  shapeCasts_S1x64_S64 : S1x64.ShapeCasts S64
  bcast_S50000x1_S50000x64_0_1 : S50000x1.BroadcastsInDim S50000x64 (![0, 1] : Fin 2 → Fin S50000x64.rank)
  bcast_S64_S50000x64_1 : S64.BroadcastsInDim S50000x64 (![1] : Fin 1 → Fin S50000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x2 : S_.BroadcastsInDim S50000x2 (![] : Fin 0 → Fin S50000x2.rank)
  bcast_S_S50000 : S_.BroadcastsInDim S50000 (![] : Fin 0 → Fin S50000.rank)
  bcast_S50000x1_S50000x2_0_1 : S50000x1.BroadcastsInDim S50000x2 (![0, 1] : Fin 2 → Fin S50000x2.rank)
  concatenates_S50000x64_S50000x2_S50000x2_S50000x2_S50000x2_S50000x2_S50000x74_d1 : Shape.Concatenates [S50000x64, S50000x2, S50000x2, S50000x2, S50000x2, S50000x2] S50000x74 1
  concatenates_S500000x64_S500000x74_S500000x64_S500000x74_S500000x276_d1 : Shape.Concatenates [S500000x64, S500000x74, S500000x64, S500000x74] S500000x276 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x2_S500000x1_S500000x2_1_0_n_n_0_1_12_wf : GatherDims.WF S50000x2 S500000x1 S500000x2 [1] [0] [] [0] [] 1 ![1, 2]
  scatter_S50000x2_S500000x1_S500000x2_1_0_0_1_wf : ScatterDims.WF S50000x2 S500000x1 S500000x2 [1] [0] [0] 1
  scatter_S50000_S500000x1_S500000_n_0_0_1_wf : ScatterDims.WF S50000 S500000x1 S500000 [] [0] [0] 1
  gather_S50000x74_S500000x1_S500000x74_1_0_n_n_0_1_174_wf : GatherDims.WF S50000x74 S500000x1 S500000x74 [1] [0] [] [0] [] 1 ![1, 74]
  dot_S500000x276_S276x64_S500000x64_1_0_0_1_n_n_wf : DotDims.WF S500000x276 S276x64 S500000x64 [1] [0] [0] [1] [] []
  dot_S500000x64_S64x1_S500000x1_1_0_0_1_n_n_wf : DotDims.WF S500000x64 S64x1 S500000x1 [1] [0] [0] [1] [] []

variable [Facts₀]

def gather_S50000x2_S500000x1_S500000x2_1_0_n_n_0_1_12 : GatherDims S50000x2 S500000x1 S500000x2 where
  offsetDims := [1]
  collapsedSliceDims := [0]
  operandBatchingDims := []
  startIndicesBatchingDims := []
  startIndexMap := [0]
  indexVectorDim := 1
  sliceSizes := ![1, 2]
  wf := gather_S50000x2_S500000x1_S500000x2_1_0_n_n_0_1_12_wf
def scatter_S50000x2_S500000x1_S500000x2_1_0_0_1 : ScatterDims S50000x2 S500000x1 S500000x2 where
  updateWindowDims := [1]
  insertedWindowDims := [0]
  scatterDimsToOperandDims := [0]
  indexVectorDim := 1
  wf := scatter_S50000x2_S500000x1_S500000x2_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x74_S500000x1_S500000x74_1_0_n_n_0_1_174 : GatherDims S50000x74 S500000x1 S500000x74 where
  offsetDims := [1]
  collapsedSliceDims := [0]
  operandBatchingDims := []
  startIndicesBatchingDims := []
  startIndexMap := [0]
  indexVectorDim := 1
  sliceSizes := ![1, 74]
  wf := gather_S50000x74_S500000x1_S500000x74_1_0_n_n_0_1_174_wf
def dot_S500000x276_S276x64_S500000x64_1_0_0_1_n_n : DotDims S500000x276 S276x64 S500000x64 where
  lhsContracting := [1]
  rhsContracting := [0]
  lhsNonContracting := [0]
  rhsNonContracting := [1]
  lhsBatch := []
  rhsBatch := []
  wf := dot_S500000x276_S276x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.HostBits.lean ====
/-
  The host lines around the one region of `Kernel`'s @main.

  Before the region the program computes, from its ten arguments, everything the region's windows read: the two rows
  of the edge list, the node table with its all-zero rows replaced, the four rounds of mean aggregation along the
  edges and against them, the 74-wide node-feature table and its two gathers, the four row groups of the first
  layer's weights, and the four edge-indexed operands padded from 500000 to 503808 rows.  After the region it cuts
  the 503808 × 1 result back to its first 500000 rows and drops the unit axis.

  Here: the buffers' contents when the region is entered (`V`), that @main is those lines, the region, then the two
  closing lines; that the closing lines touch only what they may and write no window's array; and that no line on
  either side writes an argument, so each argument is found, and ends, as launched.
-/
import proofs.«173136_j52192442581252_2_alg».proof.Proof.Gen.Kernel.Launch
import proofs.«173136_j52192442581252_2_alg».proof.Proof.Gen.Kernel.Skeleton
import proofs.«173136_j52192442581252_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Host

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before the region -/

/-- The host lines before the region, stretch by stretch (a module-local function's lines are a stretch of their own). -/
abbrev lead : List (List (HloOp τ sig (Elt F))) :=
  [hostOps0, hostOps0_1, hostOps0_2, hostOps0_3, hostOps0_4, hostOps0_5, hostOps0_6, hostOps0_7, hostOps0_8, hostOps0_9]

/-- Core `c`'s buffer contents when the region is entered: the launch contents run through the lines before it. -/
abbrev V0 (c : Dev nD) : Valuation τ sig (Elt F) := StableHlo.after (List.flatten lead) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the two closing lines: it reduces to the region continued by
    the closing lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main lead [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-! ## The two closing lines -/

/-- They touch the windows' arrays and the buffers that bypass the region only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result, which is no window's array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The arguments are written by no line -/

/-- No line before the region writes an argument: every line writes its own result buffer, which is none of the ten. -/
local macro "lead_keeps" : tactic => `(tactic| (
  simp only [lead, hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)))

local macro "tail_keeps_arg" : tactic => `(tactic| (
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)))

/-- Argument 0 is found by the region as launched, -/
theorem V_main_arg0 (c : Dev nD) : V m c main_arg0 = m ((c : Thread nD τ).loc main_arg0) :=
  StableHlo.after_of_forall_not_mem (b := Proc.devRef .tc main_arg0) _ _ (List.forall_iff_forall_mem.mp (by lead_keeps))
/-- and ends as launched: the closing lines do not write it and it is no window's array. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_keeps_arg)),
    Pipeline.withArrays_of_ne _ c (V0 m c) _ main_arg0 (by exact (by decide : ∀ w, Pipeline.arrRef spec0 w ≠ main_arg0))]
  exact V_main_arg0 m c
/-- Argument 1 is found by the region as launched, -/
theorem V_main_arg1 (c : Dev nD) : V m c main_arg1 = m ((c : Thread nD τ).loc main_arg1) :=
  StableHlo.after_of_forall_not_mem (b := Proc.devRef .tc main_arg1) _ _ (List.forall_iff_forall_mem.mp (by lead_keeps))
/-- and ends as launched: the closing lines do not write it and it is no window's array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_keeps_arg)),
    Pipeline.withArrays_of_ne _ c (V0 m c) _ main_arg1 (by exact (by decide : ∀ w, Pipeline.arrRef spec0 w ≠ main_arg1))]
  exact V_main_arg1 m c
/-- Argument 2 is found by the region as launched, -/
theorem V_main_arg2 (c : Dev nD) : V m c main_arg2 = m ((c : Thread nD τ).loc main_arg2) :=
  StableHlo.after_of_forall_not_mem (b := Proc.devRef .tc main_arg2) _ _ (List.forall_iff_forall_mem.mp (by lead_keeps))
/-- and ends as launched: the closing lines do not write it and it is no window's array. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_keeps_arg)),
    Pipeline.withArrays_of_ne _ c (V0 m c) _ main_arg2 (by exact (by decide : ∀ w, Pipeline.arrRef spec0 w ≠ main_arg2))]
  exact V_main_arg2 m c
/-- Argument 3 is found by the region as launched, -/
theorem V_main_arg3 (c : Dev nD) : V m c main_arg3 = m ((c : Thread nD τ).loc main_arg3) :=
  StableHlo.after_of_forall_not_mem (b := Proc.devRef .tc main_arg3) _ _ (List.forall_iff_forall_mem.mp (by lead_keeps))
/-- and ends as launched: the closing lines do not write it and it is no window's array. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by tail_keeps_arg)),
    Pipeline.withArrays_of_ne _ c (V0 m c) _ main_arg3 (by exact (by decide : ∀ w, Pipeline.arrRef spec0 w ≠ main_arg3))]
  exact V_main_arg3 m c
/-- Argument 4 is found by the region as launched, -/
theorem V_main_arg4 (c : Dev nD) : V m c main_arg4 = m ((c : Thread nD τ).loc main_arg4) :=
  StableHlo.after_of_forall_not_mem (b := Proc.devRef .tc main_arg4) _ _ (List.forall_iff_forall_mem.mp (by lead_keeps))
/-- and ends as launched: the closing lines do not write it and it is no window's array. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by tail_keeps_arg)),
    Pipeline.withArrays_of_ne _ c (V0 m c) _ main_arg4 (by exact (by decide : ∀ w, Pipeline.arrRef spec0 w ≠ main_arg4))]
  exact V_main_arg4 m c
/-- Argument 5 is found by the region as launched, -/
theorem V_main_arg5 (c : Dev nD) : V m c main_arg5 = m ((c : Thread nD τ).loc main_arg5) :=
  StableHlo.after_of_forall_not_mem (b := Proc.devRef .tc main_arg5) _ _ (List.forall_iff_forall_mem.mp (by lead_keeps))
/-- and ends as launched: the closing lines do not write it and it is no window's array. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by tail_keeps_arg)),
    Pipeline.withArrays_of_ne _ c (V0 m c) _ main_arg5 (by exact (by decide : ∀ w, Pipeline.arrRef spec0 w ≠ main_arg5))]
  exact V_main_arg5 m c
/-- Argument 6 is found by the region as launched, -/
theorem V_main_arg6 (c : Dev nD) : V m c main_arg6 = m ((c : Thread nD τ).loc main_arg6) :=
  StableHlo.after_of_forall_not_mem (b := Proc.devRef .tc main_arg6) _ _ (List.forall_iff_forall_mem.mp (by lead_keeps))
/-- and ends as launched: the closing lines do not write it and it is no window's array. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by tail_keeps_arg)),
    Pipeline.withArrays_of_ne _ c (V0 m c) _ main_arg6 (by exact (by decide : ∀ w, Pipeline.arrRef spec0 w ≠ main_arg6))]
  exact V_main_arg6 m c
/-- Argument 7 is found by the region as launched, -/
theorem V_main_arg7 (c : Dev nD) : V m c main_arg7 = m ((c : Thread nD τ).loc main_arg7) :=
  StableHlo.after_of_forall_not_mem (b := Proc.devRef .tc main_arg7) _ _ (List.forall_iff_forall_mem.mp (by lead_keeps))
/-- and ends as launched: the closing lines do not write it and it is no window's array. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by tail_keeps_arg)),
    Pipeline.withArrays_of_ne _ c (V0 m c) _ main_arg7 (by exact (by decide : ∀ w, Pipeline.arrRef spec0 w ≠ main_arg7))]
  exact V_main_arg7 m c
/-- Argument 8 is found by the region as launched, -/
theorem V_main_arg8 (c : Dev nD) : V m c main_arg8 = m ((c : Thread nD τ).loc main_arg8) :=
  StableHlo.after_of_forall_not_mem (b := Proc.devRef .tc main_arg8) _ _ (List.forall_iff_forall_mem.mp (by lead_keeps))
/-- and ends as launched: the closing lines do not write it and it is no window's array. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by tail_keeps_arg)),
    Pipeline.withArrays_of_ne _ c (V0 m c) _ main_arg8 (by exact (by decide : ∀ w, Pipeline.arrRef spec0 w ≠ main_arg8))]
  exact V_main_arg8 m c
/-- Argument 9 is found by the region as launched, -/
theorem V_main_arg9 (c : Dev nD) : V m c main_arg9 = m ((c : Thread nD τ).loc main_arg9) :=
  StableHlo.after_of_forall_not_mem (b := Proc.devRef .tc main_arg9) _ _ (List.forall_iff_forall_mem.mp (by lead_keeps))
/-- and ends as launched: the closing lines do not write it and it is no window's array. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by tail_keeps_arg)),
    Pipeline.withArrays_of_ne _ c (V0 m c) _ main_arg9 (by exact (by decide : ∀ w, Pipeline.arrRef spec0 w ≠ main_arg9))]
  exact V_main_arg9 m c

end Cert.Kernel.Host

end
-- ==== Proof.BodyBits.lean ====
/-
  One grid point of `Kernel`'s edge scorer.

  The body reads eleven blocks — 4096 rows of the query embeddings, of the source features, of the edge attributes
  and of the destination features, the four row groups of the first layer's weights, its bias row, the second
  layer's weight row and its bias — and overwrites the whole 4096 × 1 output block with one value: the positive part
  of the four partial products plus the bias, multiplied by the weight row, summed along the 64 lanes, plus the last
  bias.  Here: each input block as the region finds it (`iblk`), that an input's staging buffer holds its block at
  every point whether or not it was fetched there, what the output buffer holds after the body (`out`), and the
  body's triple.
-/
import proofs.«173136_j52192442581252_2_alg».proof.Proof.HostBits

set_option maxRecDepth 16384

noncomputable section

namespace Cert.Kernel.Body

open Cert.Kernel Cert.Kernel.Gen Cert.Kernel.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its block index has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (where it is not
    fetched its block index has not moved), for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (where it is not
    fetched its block index has not moved), for any proof data over `V` whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The output window's staging buffer after the body, from the eleven input blocks: its one store, which covers it. -/
def out (x0 : Vec F S4096x64 .f32) (x1 : Vec F S4096x74 .bf16) (x2 : Vec F S4096x64 .f32) (x3 : Vec F S4096x74 .bf16) (x4 : Vec F S64x64 .bf16) (x5 : Vec F S74x64 .bf16) (x6 : Vec F S64x64 .bf16) (x7 : Vec F S74x64 .bf16) (x8 : Vec F S1x64 .f32) (x9 : Vec F S1x64 .f32) (x10 : Vec F S1x1 .f32) : Vec F S4096x1 .f32 :=
  View.canon [⟨(Rect.unit (s := S4096x1) ![0, 0] S4096x1.size inb_S4096x1_S4096x1_0_0), k0_pay1 (k0_pay2 (View.ld x0 (Rect.unit (s := S4096x64) ![0, 0] S4096x64.size inb_S4096x64_S4096x64_0_0)) (View.ld x2 (Rect.unit (s := S4096x64) ![0, 0] S4096x64.size inb_S4096x64_S4096x64_0_0)) (View.ld x1 (Rect.unit (s := S4096x74) ![0, 0] S4096x74.size inb_S4096x74_S4096x74_0_0)) (View.ld x3 (Rect.unit (s := S4096x74) ![0, 0] S4096x74.size inb_S4096x74_S4096x74_0_0)) (View.ld x4 (Rect.unit (s := S64x64) ![0, 0] S64x64.size inb_S64x64_S64x64_0_0)) (View.ld x5 (Rect.unit (s := S74x64) ![0, 0] S74x64.size inb_S74x64_S74x64_0_0)) (View.ld x6 (Rect.unit (s := S64x64) ![0, 0] S64x64.size inb_S64x64_S64x64_0_0)) (View.ld x7 (Rect.unit (s := S74x64) ![0, 0] S74x64.size inb_S74x64_S74x64_0_0)) (View.ld x8 (Rect.unit (s := S1x64) ![0, 0] S1x64.size inb_S1x64_S1x64_0_0))) (k0_pay3 (View.ld x9 (Rect.unit (s := S1x64) ![0, 0] S1x64.size inb_S1x64_S1x64_0_0))) (View.ld x10 (Rect.unit (s := S1x1) ![0, 0] S1x1.size inb_S1x1_S1x1_0_0))⟩]

/-- The one store is through the whole block's rectangle, so it covers the block. -/
theorem cover (p0 : Vec F S4096x1 .f32) (y : S4096x1.Idx) :
    ∃ pc ∈ ([⟨(Rect.unit (s := S4096x1) ![0, 0] S4096x1.size inb_S4096x1_S4096x1_0_0), p0⟩] : List (View.Piece (Elt F) S4096x1 .f32)), y ∈ pc.1.set :=
  View.cover_of_tiled [⟨(Rect.unit (s := S4096x1) ![0, 0] S4096x1.size inb_S4096x1_S4096x1_0_0), p0⟩] S4096x1.size (by rfl) y

/-! ## The body's triple -/

set_option maxHeartbeats 2000000 in
/-- The body on whole staging memrefs — the inputs' at read contents `xW`, the output's at anything — runs to the
    continuation holding the inputs' as they were and the output's at `out` of the inputs'. -/
theorem sound_kernel (c : Dev nD) (E : Set ℕ) (i : grid0.Coords) (arg1 : Memref sig .tc .vmem S4096x64 .f32) (harg1 : arg1.IsWhole) (arg2 : Memref sig .tc .vmem S4096x74 .bf16) (harg2 : arg2.IsWhole) (arg3 : Memref sig .tc .vmem S4096x64 .f32) (harg3 : arg3.IsWhole) (arg4 : Memref sig .tc .vmem S4096x74 .bf16) (harg4 : arg4.IsWhole) (arg5 : Memref sig .tc .vmem S64x64 .bf16) (harg5 : arg5.IsWhole) (arg6 : Memref sig .tc .vmem S74x64 .bf16) (harg6 : arg6.IsWhole) (arg7 : Memref sig .tc .vmem S64x64 .bf16) (harg7 : arg7.IsWhole) (arg8 : Memref sig .tc .vmem S74x64 .bf16) (harg8 : arg8.IsWhole) (arg9 : Memref sig .tc .vmem S1x64 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S4096x1 .f32) (harg12 : arg12.IsWhole)
    (x0 : Vec F S4096x64 .f32) (x1 : Vec F S4096x74 .bf16) (x2 : Vec F S4096x64 .f32) (x3 : Vec F S4096x74 .bf16) (x4 : Vec F S64x64 .bf16) (x5 : Vec F S74x64 .bf16) (x6 : Vec F S64x64 .bf16) (x7 : Vec F S74x64 .bf16) (x8 : Vec F S1x64 .f32) (x9 : Vec F S1x64 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out x0 x1 x2 x3 x4 x5 x6 x7 x8 x9 x10)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11 arg12 harg12) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover _)

end Cert.Kernel.Body

end
-- ==== Proof.RunBits.lean ====
/-
  The run of `Kernel`'s @main: the host lines, the 123 grid points of the edge scorer, the two closing lines.

  The proof data names, for every point, what each staging buffer holds after the body — an input's its own block, the
  output's the block of scores the body computed from the eleven input blocks at that point.  The body meets its
  obligation at every point by its triple; the run then ends with every window's array at what the library computes
  from that data, and every other buffer — the ten arguments among them — as the closing lines leave it.  Read at the
  arguments, which no line writes, this is the frame claim.
-/
import proofs.«173136_j52192442581252_2_alg».proof.Proof.BodyBits

set_option maxRecDepth 16384

noncomputable section

namespace Cert.Kernel.Run

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the scores of the input blocks; the scoped rest and the generator register untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The arrays are the region-entry contents (the data's definition projected; `V` is never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = out (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so its triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, without a fault, with every
    window's array at what the library computes from the proof data and every other unscoped buffer as the closing
    lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The arguments end unchanged: each bypasses the region and is written by no line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

end Cert.Kernel.Run

end
-- ==== Proof.HostIdeal.lean ====
/-
  The host lines around the one region of `KernelIdeal`'s @main.

  Before the region the program computes, from its ten arguments, everything the region's windows read: the two rows
  of the edge list, the node table with its all-zero rows replaced, the four rounds of mean aggregation along the
  edges and against them, the 74-wide node-feature table and its two gathers, the four row groups of the first
  layer's weights, and the four edge-indexed operands padded from 500000 to 503808 rows.  After the region it cuts
  the 503808 × 1 result back to its first 500000 rows and drops the unit axis.

  Here: the buffers' contents when the region is entered (`V`), that @main is those lines, the region, then the two
  closing lines; that the closing lines touch only what they may and write no window's array; and that no line on
  either side writes an argument, so each argument is found, and ends, as launched.
-/
import proofs.«173136_j52192442581252_2_alg».proof.Proof.Gen.KernelIdeal.Launch
import proofs.«173136_j52192442581252_2_alg».proof.Proof.Gen.KernelIdeal.Skeleton
import proofs.«173136_j52192442581252_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before the region -/

/-- The host lines before the region, stretch by stretch (a module-local function's lines are a stretch of their own). -/
abbrev lead : List (List (HloOp τ sig (Elt F))) :=
  [hostOps0, hostOps0_1, hostOps0_2, hostOps0_3, hostOps0_4, hostOps0_5, hostOps0_6, hostOps0_7, hostOps0_8, hostOps0_9]

/-- Core `c`'s buffer contents when the region is entered: the launch contents run through the lines before it. -/
abbrev V0 (c : Dev nD) : Valuation τ sig (Elt F) := StableHlo.after (List.flatten lead) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the two closing lines: it reduces to the region continued by
    the closing lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main lead [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-! ## The two closing lines -/

/-- They touch the windows' arrays and the buffers that bypass the region only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result, which is no window's array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The arguments are written by no line -/

/-- No line before the region writes an argument: every line writes its own result buffer, which is none of the ten. -/
local macro "lead_keeps" : tactic => `(tactic| (
  simp only [lead, hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)))

local macro "tail_keeps_arg" : tactic => `(tactic| (
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)))

/-- Argument 0 is found by the region as launched, -/
theorem V_main_arg0 (c : Dev nD) : V m c main_arg0 = m ((c : Thread nD τ).loc main_arg0) :=
  StableHlo.after_of_forall_not_mem (b := Proc.devRef .tc main_arg0) _ _ (List.forall_iff_forall_mem.mp (by lead_keeps))
/-- and ends as launched: the closing lines do not write it and it is no window's array. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_keeps_arg)),
    Pipeline.withArrays_of_ne _ c (V0 m c) _ main_arg0 (by exact (by decide : ∀ w, Pipeline.arrRef spec0 w ≠ main_arg0))]
  exact V_main_arg0 m c
/-- Argument 1 is found by the region as launched, -/
theorem V_main_arg1 (c : Dev nD) : V m c main_arg1 = m ((c : Thread nD τ).loc main_arg1) :=
  StableHlo.after_of_forall_not_mem (b := Proc.devRef .tc main_arg1) _ _ (List.forall_iff_forall_mem.mp (by lead_keeps))
/-- and ends as launched: the closing lines do not write it and it is no window's array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_keeps_arg)),
    Pipeline.withArrays_of_ne _ c (V0 m c) _ main_arg1 (by exact (by decide : ∀ w, Pipeline.arrRef spec0 w ≠ main_arg1))]
  exact V_main_arg1 m c
/-- Argument 2 is found by the region as launched, -/
theorem V_main_arg2 (c : Dev nD) : V m c main_arg2 = m ((c : Thread nD τ).loc main_arg2) :=
  StableHlo.after_of_forall_not_mem (b := Proc.devRef .tc main_arg2) _ _ (List.forall_iff_forall_mem.mp (by lead_keeps))
/-- and ends as launched: the closing lines do not write it and it is no window's array. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_keeps_arg)),
    Pipeline.withArrays_of_ne _ c (V0 m c) _ main_arg2 (by exact (by decide : ∀ w, Pipeline.arrRef spec0 w ≠ main_arg2))]
  exact V_main_arg2 m c
/-- Argument 3 is found by the region as launched, -/
theorem V_main_arg3 (c : Dev nD) : V m c main_arg3 = m ((c : Thread nD τ).loc main_arg3) :=
  StableHlo.after_of_forall_not_mem (b := Proc.devRef .tc main_arg3) _ _ (List.forall_iff_forall_mem.mp (by lead_keeps))
/-- and ends as launched: the closing lines do not write it and it is no window's array. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by tail_keeps_arg)),
    Pipeline.withArrays_of_ne _ c (V0 m c) _ main_arg3 (by exact (by decide : ∀ w, Pipeline.arrRef spec0 w ≠ main_arg3))]
  exact V_main_arg3 m c
/-- Argument 4 is found by the region as launched, -/
theorem V_main_arg4 (c : Dev nD) : V m c main_arg4 = m ((c : Thread nD τ).loc main_arg4) :=
  StableHlo.after_of_forall_not_mem (b := Proc.devRef .tc main_arg4) _ _ (List.forall_iff_forall_mem.mp (by lead_keeps))
/-- and ends as launched: the closing lines do not write it and it is no window's array. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by tail_keeps_arg)),
    Pipeline.withArrays_of_ne _ c (V0 m c) _ main_arg4 (by exact (by decide : ∀ w, Pipeline.arrRef spec0 w ≠ main_arg4))]
  exact V_main_arg4 m c
/-- Argument 5 is found by the region as launched, -/
theorem V_main_arg5 (c : Dev nD) : V m c main_arg5 = m ((c : Thread nD τ).loc main_arg5) :=
  StableHlo.after_of_forall_not_mem (b := Proc.devRef .tc main_arg5) _ _ (List.forall_iff_forall_mem.mp (by lead_keeps))
/-- and ends as launched: the closing lines do not write it and it is no window's array. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by tail_keeps_arg)),
    Pipeline.withArrays_of_ne _ c (V0 m c) _ main_arg5 (by exact (by decide : ∀ w, Pipeline.arrRef spec0 w ≠ main_arg5))]
  exact V_main_arg5 m c
/-- Argument 6 is found by the region as launched, -/
theorem V_main_arg6 (c : Dev nD) : V m c main_arg6 = m ((c : Thread nD τ).loc main_arg6) :=
  StableHlo.after_of_forall_not_mem (b := Proc.devRef .tc main_arg6) _ _ (List.forall_iff_forall_mem.mp (by lead_keeps))
/-- and ends as launched: the closing lines do not write it and it is no window's array. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by tail_keeps_arg)),
    Pipeline.withArrays_of_ne _ c (V0 m c) _ main_arg6 (by exact (by decide : ∀ w, Pipeline.arrRef spec0 w ≠ main_arg6))]
  exact V_main_arg6 m c
/-- Argument 7 is found by the region as launched, -/
theorem V_main_arg7 (c : Dev nD) : V m c main_arg7 = m ((c : Thread nD τ).loc main_arg7) :=
  StableHlo.after_of_forall_not_mem (b := Proc.devRef .tc main_arg7) _ _ (List.forall_iff_forall_mem.mp (by lead_keeps))
/-- and ends as launched: the closing lines do not write it and it is no window's array. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by tail_keeps_arg)),
    Pipeline.withArrays_of_ne _ c (V0 m c) _ main_arg7 (by exact (by decide : ∀ w, Pipeline.arrRef spec0 w ≠ main_arg7))]
  exact V_main_arg7 m c
/-- Argument 8 is found by the region as launched, -/
theorem V_main_arg8 (c : Dev nD) : V m c main_arg8 = m ((c : Thread nD τ).loc main_arg8) :=
  StableHlo.after_of_forall_not_mem (b := Proc.devRef .tc main_arg8) _ _ (List.forall_iff_forall_mem.mp (by lead_keeps))
/-- and ends as launched: the closing lines do not write it and it is no window's array. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by tail_keeps_arg)),
    Pipeline.withArrays_of_ne _ c (V0 m c) _ main_arg8 (by exact (by decide : ∀ w, Pipeline.arrRef spec0 w ≠ main_arg8))]
  exact V_main_arg8 m c
/-- Argument 9 is found by the region as launched, -/
theorem V_main_arg9 (c : Dev nD) : V m c main_arg9 = m ((c : Thread nD τ).loc main_arg9) :=
  StableHlo.after_of_forall_not_mem (b := Proc.devRef .tc main_arg9) _ _ (List.forall_iff_forall_mem.mp (by lead_keeps))
/-- and ends as launched: the closing lines do not write it and it is no window's array. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by tail_keeps_arg)),
    Pipeline.withArrays_of_ne _ c (V0 m c) _ main_arg9 (by exact (by decide : ∀ w, Pipeline.arrRef spec0 w ≠ main_arg9))]
  exact V_main_arg9 m c

end Cert.KernelIdeal.Host

end
-- ==== Proof.BodyIdeal.lean ====
/-
  One grid point of `KernelIdeal`'s edge scorer.

  The body reads eleven blocks — 4096 rows of the query embeddings, of the source features, of the edge attributes
  and of the destination features, the four row groups of the first layer's weights, its bias row, the second
  layer's weight row and its bias — and overwrites the whole 4096 × 1 output block with one value: the positive part
  of the four partial products plus the bias, multiplied by the weight row, summed along the 64 lanes, plus the last
  bias.  Here: each input block as the region finds it (`iblk`), that an input's staging buffer holds its block at
  every point whether or not it was fetched there, what the output buffer holds after the body (`out`), and the
  body's triple.
-/
import proofs.«173136_j52192442581252_2_alg».proof.Proof.HostIdeal

set_option maxRecDepth 16384

noncomputable section

namespace Cert.KernelIdeal.Body

open Cert.KernelIdeal Cert.KernelIdeal.Gen Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its block index has not moved), for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (where it is not
    fetched its block index has not moved), for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (where it is not
    fetched its block index has not moved), for any proof data over `V` whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The output window's staging buffer after the body, from the eleven input blocks: its one store, which covers it. -/
def out (x0 : Vec F S4096x64 .f32) (x1 : Vec F S4096x74 .bf16) (x2 : Vec F S4096x64 .f32) (x3 : Vec F S4096x74 .bf16) (x4 : Vec F S64x64 .bf16) (x5 : Vec F S74x64 .bf16) (x6 : Vec F S64x64 .bf16) (x7 : Vec F S74x64 .bf16) (x8 : Vec F S1x64 .f32) (x9 : Vec F S1x64 .f32) (x10 : Vec F S1x1 .f32) : Vec F S4096x1 .f32 :=
  View.canon [⟨(Rect.unit (s := S4096x1) ![0, 0] S4096x1.size inb_S4096x1_S4096x1_0_0), k0_pay1 (k0_pay2 (View.ld x0 (Rect.unit (s := S4096x64) ![0, 0] S4096x64.size inb_S4096x64_S4096x64_0_0)) (View.ld x2 (Rect.unit (s := S4096x64) ![0, 0] S4096x64.size inb_S4096x64_S4096x64_0_0)) (View.ld x1 (Rect.unit (s := S4096x74) ![0, 0] S4096x74.size inb_S4096x74_S4096x74_0_0)) (View.ld x3 (Rect.unit (s := S4096x74) ![0, 0] S4096x74.size inb_S4096x74_S4096x74_0_0)) (View.ld x4 (Rect.unit (s := S64x64) ![0, 0] S64x64.size inb_S64x64_S64x64_0_0)) (View.ld x5 (Rect.unit (s := S74x64) ![0, 0] S74x64.size inb_S74x64_S74x64_0_0)) (View.ld x6 (Rect.unit (s := S64x64) ![0, 0] S64x64.size inb_S64x64_S64x64_0_0)) (View.ld x7 (Rect.unit (s := S74x64) ![0, 0] S74x64.size inb_S74x64_S74x64_0_0)) (View.ld x8 (Rect.unit (s := S1x64) ![0, 0] S1x64.size inb_S1x64_S1x64_0_0))) (k0_pay3 (View.ld x9 (Rect.unit (s := S1x64) ![0, 0] S1x64.size inb_S1x64_S1x64_0_0))) (View.ld x10 (Rect.unit (s := S1x1) ![0, 0] S1x1.size inb_S1x1_S1x1_0_0))⟩]

/-- The one store is through the whole block's rectangle, so it covers the block. -/
theorem cover (p0 : Vec F S4096x1 .f32) (y : S4096x1.Idx) :
    ∃ pc ∈ ([⟨(Rect.unit (s := S4096x1) ![0, 0] S4096x1.size inb_S4096x1_S4096x1_0_0), p0⟩] : List (View.Piece (Elt F) S4096x1 .f32)), y ∈ pc.1.set :=
  View.cover_of_tiled [⟨(Rect.unit (s := S4096x1) ![0, 0] S4096x1.size inb_S4096x1_S4096x1_0_0), p0⟩] S4096x1.size (by rfl) y

/-! ## The body's triple -/

set_option maxHeartbeats 2000000 in
/-- The body on whole staging memrefs — the inputs' at read contents `xW`, the output's at anything — runs to the
    continuation holding the inputs' as they were and the output's at `out` of the inputs'. -/
theorem sound_kernel (c : Dev nD) (E : Set ℕ) (i : grid0.Coords) (arg1 : Memref sig .tc .vmem S4096x64 .f32) (harg1 : arg1.IsWhole) (arg2 : Memref sig .tc .vmem S4096x74 .bf16) (harg2 : arg2.IsWhole) (arg3 : Memref sig .tc .vmem S4096x64 .f32) (harg3 : arg3.IsWhole) (arg4 : Memref sig .tc .vmem S4096x74 .bf16) (harg4 : arg4.IsWhole) (arg5 : Memref sig .tc .vmem S64x64 .bf16) (harg5 : arg5.IsWhole) (arg6 : Memref sig .tc .vmem S74x64 .bf16) (harg6 : arg6.IsWhole) (arg7 : Memref sig .tc .vmem S64x64 .bf16) (harg7 : arg7.IsWhole) (arg8 : Memref sig .tc .vmem S74x64 .bf16) (harg8 : arg8.IsWhole) (arg9 : Memref sig .tc .vmem S1x64 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S4096x1 .f32) (harg12 : arg12.IsWhole)
    (x0 : Vec F S4096x64 .f32) (x1 : Vec F S4096x74 .bf16) (x2 : Vec F S4096x64 .f32) (x3 : Vec F S4096x74 .bf16) (x4 : Vec F S64x64 .bf16) (x5 : Vec F S74x64 .bf16) (x6 : Vec F S64x64 .bf16) (x7 : Vec F S74x64 .bf16) (x8 : Vec F S1x64 .f32) (x9 : Vec F S1x64 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out x0 x1 x2 x3 x4 x5 x6 x7 x8 x9 x10)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11 arg12 harg12) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover _)

end Cert.KernelIdeal.Body

end
-- ==== Proof.RunIdeal.lean ====
/-
  The run of `KernelIdeal`'s @main: the host lines, the 123 grid points of the edge scorer, the two closing lines.

  The proof data names, for every point, what each staging buffer holds after the body — an input's its own block, the
  output's the block of scores the body computed from the eleven input blocks at that point.  The body meets its
  obligation at every point by its triple; the run then ends with every window's array at what the library computes
  from that data, and every other buffer — the ten arguments among them — as the closing lines leave it.  Read at the
  arguments, which no line writes, this is the frame claim.
-/
import proofs.«173136_j52192442581252_2_alg».proof.Proof.BodyIdeal

set_option maxRecDepth 16384

noncomputable section

namespace Cert.KernelIdeal.Run

open Cert.KernelIdeal Cert.KernelIdeal.Gen Cert.KernelIdeal.Host Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the scores of the input blocks; the scoped rest and the generator register untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The arrays are the region-entry contents (the data's definition projected; `V` is never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = out (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so its triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, without a fault, with every
    window's array at what the library computes from the proof data and every other unscoped buffer as the closing
    lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The arguments end unchanged: each bypasses the region and is written by no line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

end Cert.KernelIdeal.Run

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.BlockScore.lean ====
/-
  The edge scorer's block arithmetic read at one row, at the ideal values.

  For a block of 4096 edges the body multiplies the four feature groups by their blocks of first-layer weights,
  adds the four products left to right, adds the bias row, takes the positive part, and scores each row against
  the one row of second-layer weights, plus the scalar bias. Row r of the result is therefore
      ∑ j, max ((q·Wq + s·Ws + e·We + d·Wd)(r, j) + b1(j)) 0 · w2(j)  +  b2.
  Narrowing a value to a shorter format is the identity on extended reals; a product accumulated into the zero
  block is the bare sum over the contracted coordinate; the sum over the 64 lanes starts from zero.
-/
import proofs.«173136_j52192442581252_2_alg».proof.Proof.Gen.KernelIdeal.Skeleton
import proofs.«173136_j52192442581252_2_alg».proof.Proof.LibPlainDot
import proofs.«173136_j52192442581252_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.BlockScore

open Cert.KernelIdeal Cert.KernelIdeal.Gen Idealize.ShloMosaic Idealize.ShloMosaic.ValueIdx
open scoped BigOperators

/-! ## The two block products at an entry -/

/-- A 4096×64 block times a 64×64 block, accumulated into the zero block: entry (r, j) is ∑ k, a(r, k) · b(k, j). -/
theorem matmul64_apply (a : FVec Ideal S4096x64 .bf16) (b : FVec Ideal S64x64 .bf16) (r : Fin 4096) (j : Fin 64) :
    matmul dot_S4096x64_S64x64_S4096x64_1_0_0_1_n_n none a b (constant (F := Ideal) S4096x64 .f32 0x00000000#32) (ix2 r j)
      = ∑ k : Fin 64, a (ix2 r k) * b (ix2 k j) :=
  Cert.LibPlainDot.matmul_plain_zero_apply dot_S4096x64_S64x64_S4096x64_1_0_0_1_n_n rfl none a b r j

/-- A 4096×74 block times a 74×64 block, accumulated into the zero block: entry (r, j) is ∑ k, a(r, k) · b(k, j). -/
theorem matmul74_apply (a : FVec Ideal S4096x74 .bf16) (b : FVec Ideal S74x64 .bf16) (r : Fin 4096) (j : Fin 64) :
    matmul dot_S4096x74_S74x64_S4096x64_1_0_0_1_n_n none a b (constant (F := Ideal) S4096x64 .f32 0x00000000#32) (ix2 r j)
      = ∑ k : Fin 74, a (ix2 r k) * b (ix2 k j) :=
  Cert.LibPlainDot.matmul_plain_zero_apply dot_S4096x74_S74x64_S4096x64_1_0_0_1_n_n rfl none a b r j

/-! ## The hidden layer at an entry -/

/-- Hidden unit j of row r: the positive part of the four partial products, added left to right, plus the bias. -/
theorem hidden_apply (xq xe : Vec Ideal S4096x64 .f32) (xs xd : Vec Ideal S4096x74 .bf16)
    (wq we : Vec Ideal S64x64 .bf16) (ws wd : Vec Ideal S74x64 .bf16) (b1 : Vec Ideal S1x64 .f32)
    (r : Fin 4096) (j : Fin 64) :
    k0_pay2 (F := Ideal) xq xe xs xd wq ws we wd b1 (ix2 r j)
      = max (((((∑ k : Fin 64, xq (ix2 r k) * wq (ix2 k j)) + ∑ k : Fin 74, xs (ix2 r k) * ws (ix2 k j))
              + ∑ k : Fin 64, xe (ix2 r k) * we (ix2 k j)) + ∑ k : Fin 74, xd (ix2 r k) * wd (ix2 k j))
              + b1 (ix2 (0 : Fin 1) j)) 0 := by
  unfold k0_pay2
  simp only [shapeCast_self, maximumf_apply, addf_apply, broadcast_apply, matmul64_apply, matmul74_apply,
    truncf_apply, broadcastTo_1b_ab_apply, Ideal.ofBits_def, Ideal.ofBits_zero_f32]

/-! ## The second layer's row repeated down the block -/

/-- The one row of second-layer weights, repeated down the 4096 rows: entry (r, j) is w2(j). -/
theorem w2row_apply (w2 : Vec Ideal S1x64 .f32) (r : Fin 4096) (j : Fin 64) :
    k0_pay3 (F := Ideal) w2 (ix2 r j) = w2 (ix2 (0 : Fin 1) j) := by
  unfold k0_pay3
  simp only [shapeCast_self, broadcastTo_1b_ab_apply]

/-! ## The sum over the lanes, and the score -/

/-- The sum over axis 1 of a 4096×64 block, started from zero, at row r: the sum of the row's 64 entries. -/
theorem laneSum_apply (src : FVec Ideal S4096x64 .f32) (hφ : FKind.Formats .f32)
    (hacc : (0x00000000#32 : BitVec FTy.f32.bits) = FKind.add.neutral .f32 hφ) (r : Fin 4096) :
    multiReduction (F := Ideal) .add [1] S4096 src 0x00000000#32 reduces_S4096x64_S4096 hφ hacc (ix1 r)
      = ∑ k : Fin 64, src (ix2 r k) := by
  refine (Ideal.multiReduction_add_single src 0x00000000#32 reduces_S4096x64_S4096 hφ hacc (ix1 r)).trans ?_
  show ∑ k : Fin 64, src (reduces_S4096x64_S4096.lift (ix1 r) k) = _
  refine Finset.sum_congr rfl fun k _ => congrArg src (funext fun c => Fin.ext ?_)
  match c with
  | ⟨0, _⟩ => rfl
  | ⟨1, _⟩ => rfl

/-- The score of row r from a hidden block h and a weight block w: the sum over the lanes of their products,
    plus the scalar bias. -/
theorem score_apply (h w : FVec Ideal S4096x64 .f32) (b2 : Vec Ideal S1x1 .f32) (r : Fin 4096) :
    k0_pay1 (F := Ideal) h w b2 (ix2 r (0 : Fin 1))
      = (∑ j : Fin 64, h (ix2 r j) * w (ix2 r j)) + b2 (ix2 (0 : Fin 1) (0 : Fin 1)) := by
  unfold k0_pay1
  simp only [addf_apply, shapeCast_self, broadcastTo_1b_ab_apply, ColumnForms.shapeCast_a_a1_apply]
  refine congrArg (· + b2 (ix2 (0 : Fin 1) (0 : Fin 1))) ?_
  exact laneSum_apply (mulf h w) _ _ r

/-! ## The body's result at a row -/

theorem payload_row (xq xe : Vec Ideal S4096x64 .f32) (xs xd : Vec Ideal S4096x74 .bf16)
    (wq we : Vec Ideal S64x64 .bf16) (ws wd : Vec Ideal S74x64 .bf16) (b1 w2 : Vec Ideal S1x64 .f32) (b2 : Vec Ideal S1x1 .f32)
    (r : Fin 4096) :
    k0_pay1 (F := Ideal) (k0_pay2 (F := Ideal) xq xe xs xd wq ws we wd b1) (k0_pay3 (F := Ideal) w2) b2 (ix2 r (0 : Fin 1))
      = (∑ j : Fin 64,
            max (((((∑ k : Fin 64, xq (ix2 r k) * wq (ix2 k j)) + ∑ k : Fin 74, xs (ix2 r k) * ws (ix2 k j))
                  + ∑ k : Fin 64, xe (ix2 r k) * we (ix2 k j)) + ∑ k : Fin 74, xd (ix2 r k) * wd (ix2 k j))
                  + b1 (ix2 (0 : Fin 1) j)) 0
              * w2 (ix2 (0 : Fin 1) j))
        + b2 (ix2 (0 : Fin 1) (0 : Fin 1)) := by
  refine (score_apply _ _ b2 r).trans ?_
  refine congrArg (· + b2 (ix2 (0 : Fin 1) (0 : Fin 1))) (Finset.sum_congr rfl fun j _ => ?_)
  rw [hidden_apply, w2row_apply]

end Cert.BlockScore

end
-- ==== Proof.BlocksIdeal.lean ====
/-
  From blocks to the whole padded result, at the ideal values.

  Point `t` of the grid scores the 4096 padded edge rows `4096·t … 4096·t + 4095`: its block of each edge-indexed
  operand is those rows, the weight and bias operands are whole at every point, and the output block is those rows of
  the 503808 × 1 result.  So what point `t` writes back is block `t` of ONE function of the arrays the region finds —
  row `i` scored from row `i` of the four edge-indexed arrays — and, the blocks covering every row, the result array
  ends as that function.
-/
import proofs.«173136_j52192442581252_2_alg».proof.Proof.RunIdeal
import proofs.«173136_j52192442581252_2_alg».proof.Proof.BlockScore

set_option maxRecDepth 16384

noncomputable section

namespace Cert.KernelIdeal.Blocks

open Cert.KernelIdeal Cert.KernelIdeal.Gen Cert.KernelIdeal.Host Cert.KernelIdeal.Body Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The score of every padded row from the eleven arrays: the row's four feature groups against the four weight
    groups, added left to right, plus the bias row, its positive part against the second layer's row, summed, plus the
    last bias. -/
def rows (Q E : FVec Ideal S503808x64 .f32) (Hs Hd : FVec Ideal S503808x74 .bf16) (wq we : FVec Ideal S64x64 .bf16)
    (ws wd : FVec Ideal S74x64 .bf16) (b1 w2 : FVec Ideal S1x64 .f32) (b2 : FVec Ideal S1x1 .f32) : FVec Ideal S503808x1 .f32 :=
  fun i => (∑ j : Fin 64,
      max (((((∑ k : Fin 64, Q (ix2 (i 0) k) * wq (ix2 k j)) + ∑ k : Fin 74, Hs (ix2 (i 0) k) * ws (ix2 k j))
            + ∑ k : Fin 64, E (ix2 (i 0) k) * we (ix2 k j)) + ∑ k : Fin 74, Hd (ix2 (i 0) k) * wd (ix2 k j))
            + b1 (ix2 (0 : Fin 1) j)) 0
        * w2 (ix2 (0 : Fin 1) j))
    + b2 (ix2 (0 : Fin 1) (0 : Fin 1))

theorem hz : (![0, 0] : Fin 2 → Nat) = fun _ => 0 := funext fun a => by fin_cases a <;> rfl

/-- The printed index maps over the grid: the four edge-indexed operands and the result move with the point along the
    rows; the seven weight and bias operands stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

theorem t_lt (t : Fin cfg0.N) : t.val < 123 := lt_of_lt_of_eq t.isLt N_0

/-- Row `r` of point `t`'s block is padded row `4096·t + r`. -/
abbrev prow (t : Fin cfg0.N) (r : Fin 4096) : Fin 503808 := ⟨t.val * 4096 + r.val, by have := t_lt t; have := r.isLt; omega⟩

/-- Window 0's block at point `t`, at (r, k), is its array at (4096·t + r, k). -/
theorem iblk0_apply (c : Dev nD) (t : Fin cfg0.N) (r : Fin 4096) (k : Fin 64) :
    iblk m c 0 t (ix2 r k) = V m c main_v112 (ix2 (prow t r) k) := by
  obtain ⟨e0, e1, e2, e3, -⟩ := idx_facts t
  show V m c main_v112 (((cfg0.win 0).blk t).view.emb (ix2 r k)) = V m c main_v112 (ix2 (prow t r) k)
  congr 1
  funext a; apply Fin.ext
  match a with
  | ⟨0, _⟩ => show win0_0.index t (0 : Fin 2) * 4096 + 1 * r.val = t.val * 4096 + r.val; rw [e0.1]; omega
  | ⟨1, _⟩ => show win0_0.index t (1 : Fin 2) * 64 + 1 * k.val = k.val; rw [e0.2]; omega
/-- Window 1's block at point `t`, at (r, k), is its array at (4096·t + r, k). -/
theorem iblk1_apply (c : Dev nD) (t : Fin cfg0.N) (r : Fin 4096) (k : Fin 74) :
    iblk m c 1 t (ix2 r k) = V m c main_v113 (ix2 (prow t r) k) := by
  obtain ⟨e0, e1, e2, e3, -⟩ := idx_facts t
  show V m c main_v113 (((cfg0.win 1).blk t).view.emb (ix2 r k)) = V m c main_v113 (ix2 (prow t r) k)
  congr 1
  funext a; apply Fin.ext
  match a with
  | ⟨0, _⟩ => show win0_1.index t (0 : Fin 2) * 4096 + 1 * r.val = t.val * 4096 + r.val; rw [e1.1]; omega
  | ⟨1, _⟩ => show win0_1.index t (1 : Fin 2) * 74 + 1 * k.val = k.val; rw [e1.2]; omega
/-- Window 2's block at point `t`, at (r, k), is its array at (4096·t + r, k). -/
theorem iblk2_apply (c : Dev nD) (t : Fin cfg0.N) (r : Fin 4096) (k : Fin 64) :
    iblk m c 2 t (ix2 r k) = V m c main_v114 (ix2 (prow t r) k) := by
  obtain ⟨e0, e1, e2, e3, -⟩ := idx_facts t
  show V m c main_v114 (((cfg0.win 2).blk t).view.emb (ix2 r k)) = V m c main_v114 (ix2 (prow t r) k)
  congr 1
  funext a; apply Fin.ext
  match a with
  | ⟨0, _⟩ => show win0_2.index t (0 : Fin 2) * 4096 + 1 * r.val = t.val * 4096 + r.val; rw [e2.1]; omega
  | ⟨1, _⟩ => show win0_2.index t (1 : Fin 2) * 64 + 1 * k.val = k.val; rw [e2.2]; omega
/-- Window 3's block at point `t`, at (r, k), is its array at (4096·t + r, k). -/
theorem iblk3_apply (c : Dev nD) (t : Fin cfg0.N) (r : Fin 4096) (k : Fin 74) :
    iblk m c 3 t (ix2 r k) = V m c main_v115 (ix2 (prow t r) k) := by
  obtain ⟨e0, e1, e2, e3, -⟩ := idx_facts t
  show V m c main_v115 (((cfg0.win 3).blk t).view.emb (ix2 r k)) = V m c main_v115 (ix2 (prow t r) k)
  congr 1
  funext a; apply Fin.ext
  match a with
  | ⟨0, _⟩ => show win0_3.index t (0 : Fin 2) * 4096 + 1 * r.val = t.val * 4096 + r.val; rw [e3.1]; omega
  | ⟨1, _⟩ => show win0_3.index t (1 : Fin 2) * 74 + 1 * k.val = k.val; rw [e3.2]; omega

/-- Window 4's block at every point is its whole array. -/
theorem iblk4_apply (c : Dev nD) (t : Fin cfg0.N) (a : Fin 64) (b : Fin 64) :
    iblk m c 4 t (ix2 a b) = V m c main_v104 (ix2 a b) := by
  obtain ⟨-, -, -, -, e4, e5, e6, e7, e8, e9, e10, -⟩ := idx_facts t
  show V m c main_v104 (((cfg0.win 4).blk t).view.emb (ix2 a b)) = V m c main_v104 (ix2 a b)
  congr 1
  funext d; apply Fin.ext
  match d with
  | ⟨0, _⟩ => show win0_4.index t (0 : Fin 2) * 64 + 1 * a.val = a.val; rw [e4.1]; omega
  | ⟨1, _⟩ => show win0_4.index t (1 : Fin 2) * 64 + 1 * b.val = b.val; rw [e4.2]; omega
/-- Window 5's block at every point is its whole array. -/
theorem iblk5_apply (c : Dev nD) (t : Fin cfg0.N) (a : Fin 74) (b : Fin 64) :
    iblk m c 5 t (ix2 a b) = V m c main_v105 (ix2 a b) := by
  obtain ⟨-, -, -, -, e4, e5, e6, e7, e8, e9, e10, -⟩ := idx_facts t
  show V m c main_v105 (((cfg0.win 5).blk t).view.emb (ix2 a b)) = V m c main_v105 (ix2 a b)
  congr 1
  funext d; apply Fin.ext
  match d with
  | ⟨0, _⟩ => show win0_5.index t (0 : Fin 2) * 74 + 1 * a.val = a.val; rw [e5.1]; omega
  | ⟨1, _⟩ => show win0_5.index t (1 : Fin 2) * 64 + 1 * b.val = b.val; rw [e5.2]; omega
/-- Window 6's block at every point is its whole array. -/
theorem iblk6_apply (c : Dev nD) (t : Fin cfg0.N) (a : Fin 64) (b : Fin 64) :
    iblk m c 6 t (ix2 a b) = V m c main_v106 (ix2 a b) := by
  obtain ⟨-, -, -, -, e4, e5, e6, e7, e8, e9, e10, -⟩ := idx_facts t
  show V m c main_v106 (((cfg0.win 6).blk t).view.emb (ix2 a b)) = V m c main_v106 (ix2 a b)
  congr 1
  funext d; apply Fin.ext
  match d with
  | ⟨0, _⟩ => show win0_6.index t (0 : Fin 2) * 64 + 1 * a.val = a.val; rw [e6.1]; omega
  | ⟨1, _⟩ => show win0_6.index t (1 : Fin 2) * 64 + 1 * b.val = b.val; rw [e6.2]; omega
/-- Window 7's block at every point is its whole array. -/
theorem iblk7_apply (c : Dev nD) (t : Fin cfg0.N) (a : Fin 74) (b : Fin 64) :
    iblk m c 7 t (ix2 a b) = V m c main_v107 (ix2 a b) := by
  obtain ⟨-, -, -, -, e4, e5, e6, e7, e8, e9, e10, -⟩ := idx_facts t
  show V m c main_v107 (((cfg0.win 7).blk t).view.emb (ix2 a b)) = V m c main_v107 (ix2 a b)
  congr 1
  funext d; apply Fin.ext
  match d with
  | ⟨0, _⟩ => show win0_7.index t (0 : Fin 2) * 74 + 1 * a.val = a.val; rw [e7.1]; omega
  | ⟨1, _⟩ => show win0_7.index t (1 : Fin 2) * 64 + 1 * b.val = b.val; rw [e7.2]; omega
/-- Window 8's block at every point is its whole array. -/
theorem iblk8_apply (c : Dev nD) (t : Fin cfg0.N) (a : Fin 1) (b : Fin 64) :
    iblk m c 8 t (ix2 a b) = V m c main_v108 (ix2 a b) := by
  obtain ⟨-, -, -, -, e4, e5, e6, e7, e8, e9, e10, -⟩ := idx_facts t
  show V m c main_v108 (((cfg0.win 8).blk t).view.emb (ix2 a b)) = V m c main_v108 (ix2 a b)
  congr 1
  funext d; apply Fin.ext
  match d with
  | ⟨0, _⟩ => show win0_8.index t (0 : Fin 2) * 1 + 1 * a.val = a.val; rw [e8.1]; omega
  | ⟨1, _⟩ => show win0_8.index t (1 : Fin 2) * 64 + 1 * b.val = b.val; rw [e8.2]; omega
/-- Window 9's block at every point is its whole array. -/
theorem iblk9_apply (c : Dev nD) (t : Fin cfg0.N) (a : Fin 1) (b : Fin 64) :
    iblk m c 9 t (ix2 a b) = V m c main_v110 (ix2 a b) := by
  obtain ⟨-, -, -, -, e4, e5, e6, e7, e8, e9, e10, -⟩ := idx_facts t
  show V m c main_v110 (((cfg0.win 9).blk t).view.emb (ix2 a b)) = V m c main_v110 (ix2 a b)
  congr 1
  funext d; apply Fin.ext
  match d with
  | ⟨0, _⟩ => show win0_9.index t (0 : Fin 2) * 1 + 1 * a.val = a.val; rw [e9.1]; omega
  | ⟨1, _⟩ => show win0_9.index t (1 : Fin 2) * 64 + 1 * b.val = b.val; rw [e9.2]; omega
/-- Window 10's block at every point is its whole array. -/
theorem iblk10_apply (c : Dev nD) (t : Fin cfg0.N) (a : Fin 1) (b : Fin 1) :
    iblk m c 10 t (ix2 a b) = V m c main_v111 (ix2 a b) := by
  obtain ⟨-, -, -, -, e4, e5, e6, e7, e8, e9, e10, -⟩ := idx_facts t
  show V m c main_v111 (((cfg0.win 10).blk t).view.emb (ix2 a b)) = V m c main_v111 (ix2 a b)
  congr 1
  funext d; apply Fin.ext
  match d with
  | ⟨0, _⟩ => show win0_10.index t (0 : Fin 2) * 1 + 1 * a.val = a.val; rw [e10.1]; omega
  | ⟨1, _⟩ => show win0_10.index t (1 : Fin 2) * 1 + 1 * b.val = b.val; rw [e10.2]; omega

/-- The whole result as one function of the arrays the region finds. -/
abbrev result (c : Dev nD) : FVec Ideal S503808x1 .f32 :=
  rows (V m c main_v112) (V m c main_v114) (V m c main_v113) (V m c main_v115) (V m c main_v104) (V m c main_v106)
    (V m c main_v105) (V m c main_v107) (V m c main_v108) (V m c main_v110) (V m c main_v111)

/-- What point `t` writes back is block `t` of `result`. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after11]
  unfold out
  rw [View.canon_unit_zero hz]
  simp only [View.ld_unit_zero (S := S4096x64) hz, View.ld_unit_zero (S := S4096x74) hz, View.ld_unit_zero (S := S64x64) hz,
    View.ld_unit_zero (S := S74x64) hz, View.ld_unit_zero (S := S1x64) hz, View.ld_unit_zero (S := S1x1) hz]
  funext j
  obtain ⟨r, u, rfl⟩ : ∃ (r : Fin 4096) (u : Fin 1), j = ix2 r u := ⟨j 0, j 1, eq_ix2 j⟩
  obtain rfl : u = 0 := Subsingleton.elim _ _
  refine (Cert.BlockScore.payload_row (iblk m c 0 t) (iblk m c 2 t) (iblk m c 1 t) (iblk m c 3 t) (iblk m c 4 t) (iblk m c 6 t)
    (iblk m c 5 t) (iblk m c 7 t) (iblk m c 8 t) (iblk m c 9 t) (iblk m c 10 t) r).trans ?_
  obtain ⟨-, -, -, -, -, -, -, -, -, -, -, e11⟩ := idx_facts t
  have hemb : ((cfg0.win 11).blk t).view.emb (ix2 r (0 : Fin 1)) = ix2 (prow t r) (0 : Fin 1) := by
    funext a; apply Fin.ext
    match a with
    | ⟨0, _⟩ => show win0_11.index t (0 : Fin 2) * 4096 + 1 * r.val = t.val * 4096 + r.val; rw [e11.1]; omega
    | ⟨1, _⟩ => show win0_11.index t (1 : Fin 2) * 1 + 1 * 0 = 0; rw [e11.2]
  show _ = result m c (((cfg0.win 11).blk t).view.emb (ix2 r (0 : Fin 1)))
  rw [hemb]
  simp only [iblk0_apply, iblk1_apply, iblk2_apply, iblk3_apply, iblk4_apply, iblk5_apply, iblk6_apply, iblk7_apply,
    iblk8_apply, iblk9_apply, iblk10_apply]
  rfl

/-- An index of the result is in point `t`'s block iff its row is one of the point's 4096 rows. -/
theorem mem_blk (t : Fin cfg0.N) (i : S503808x1.Idx) :
    i ∈ ((cfg0.win 11).blk t).view.set ↔ ∀ a : Fin 2, win0_11.index t a * S4096x1.size a ≤ (i a).val ∧ (i a).val < win0_11.index t a * S4096x1.size a + S4096x1.size a := by
  show i ∈ ((View.whole main_v116).slice (win0_11.rect t)).set ↔ _
  rw [View.set_slice_whole, Rect.mem_set_unit]
  exact Iff.rfl

/-- Every row is in the block of the point `row / 4096`, which writes back. -/
theorem cover (i : S503808x1.Idx) : ∃ t : Fin cfg0.N, (cfg0.win 11).flush t = true ∧ i ∈ ((cfg0.win 11).blk t).view.set := by
  have h0 : (i 0).val < 503808 := (i 0).isLt
  have h1 : (i 1).val < 1 := (i 1).isLt
  have hN : cfg0.N = 123 := N_0
  let t : Fin cfg0.N := ⟨(i 0).val / 4096, by rw [hN]; omega⟩
  refine ⟨t, flush0_11 t, ?_⟩
  obtain ⟨-, -, -, -, -, -, -, -, -, -, -, e11⟩ := idx_facts t
  rw [mem_blk]
  intro a
  match a with
  | ⟨0, _⟩ => show win0_11.index t (0 : Fin 2) * 4096 ≤ (i 0).val ∧ (i 0).val < win0_11.index t (0 : Fin 2) * 4096 + 4096; rw [e11.1]; show (i 0).val / 4096 * 4096 ≤ (i 0).val ∧ (i 0).val < (i 0).val / 4096 * 4096 + 4096; omega
  | ⟨1, _⟩ => show win0_11.index t (1 : Fin 2) * 1 ≤ (i 1).val ∧ (i 1).val < win0_11.index t (1 : Fin 2) * 1 + 1; rw [e11.2]; omega

/-- The result array after the run is `result`. -/
theorem final (c : Dev nD) : (dats m 0 c).arrAt 11 cfg0.N = result m c :=
  (dats m 0 c).arrAt_eq_of_cover 11 (result m c) (fun t _ => flushed_eq m c t) cover

end Cert.KernelIdeal.Blocks

end
-- ==== Proof.LibStretch.lean ====
/-
  Two general facts about a straight line of array operations run from some contents of the buffers.
  A line cut in two runs its second part from what its first part leaves — so a long program is read stretch by stretch,
  each stretch for arbitrary starting contents.  And contents carried to a typed reference's buffer type and back along
  the same type equation are unchanged — so the operations of a module-local function (which carry every value through
  its typed reference) compose exactly as a program's own operations do, with no transport left between them.
-/
import Idealize.ShloMosaic.Lib.StableHlo.Run

namespace Cert.LibStretch

open Idealize.ShloMosaic Idealize.ShloMosaic.StableHlo

/-- Running `l₁ ++ l₂` from `V` is running `l₂` from what `l₁` leaves. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- To the buffer's type and back is the identity. -/
theorem ofBuf_toBuf {sig : RefSig} {Val : EltTy → Type} {T : BufTy} (x : TRef sig T) (v : T.Contents Val) :
    x.ofBuf (x.toBuf v) = v := by
  rcases x with ⟨r, h, h2, h3⟩
  subst h
  rfl

/-- From the buffer's type and back likewise. -/
theorem toBuf_ofBuf {sig : RefSig} {Val : EltTy → Type} {T : BufTy} (x : TRef sig T) (v : x.ref.ty.Contents Val) :
    x.toBuf (x.ofBuf v) = v := by
  rcases x with ⟨r, h, h2, h3⟩
  subst h
  rfl

end Cert.LibStretch
-- ==== Proof.ScoreSpec.lean ====
/-
  What the edge scorer computes, stated once over the extended reals and free of either program.

  For an edge `e` the four feature groups — the query embedding `q e` (64 wide), the aggregated node
  features gathered at the edge's source `hs e` (74 wide), the edge attributes `ea e` (64 wide) and the
  node features gathered at its destination `hd e` (74 wide) — meet the rows 0–63, 64–137, 138–201 and
  202–275 of the first layer's weights `W1`; the hidden unit `j` is the positive part of their four
  partial products, summed in that order, plus the bias `b1 j`; the score is the hidden row against the
  single column of `W2`, plus `b2`.
-/
import Idealize.ShloMosaic.PureOps.Ideal
import Idealize.ShloMosaic.Lib.ValueIdx

noncomputable section

namespace Cert.EdgeScore

open Idealize.ShloMosaic Idealize.ShloMosaic.ValueIdx

/-- Row `o + k` of the 276 rows of the first layer's weights: the `k`-th row of the group starting at `o`. -/
abbrev wrow (o : Nat) {n : Nat} (k : Fin n) (h : o + n ≤ 276) : Fin 276 := ⟨o + k.val, by have := k.isLt; omega⟩

/-- Hidden unit `j` of edge `e`: the positive part of the four groups' partial products against their rows of
    `W1`, added left to right, plus the bias. -/
def hidden (q ea : (⟨2, ![500000, 64]⟩ : Shape).Idx → EReal) (hs hd : (⟨2, ![500000, 74]⟩ : Shape).Idx → EReal)
    (W1 : (⟨2, ![276, 64]⟩ : Shape).Idx → EReal) (b1 : (⟨1, ![64]⟩ : Shape).Idx → EReal)
    (e : Fin 500000) (j : Fin 64) : EReal :=
  max (((((∑ k : Fin 64, q (ix2 e k) * W1 (ix2 (wrow 0 k (by omega)) j))
        + ∑ k : Fin 74, hs (ix2 e k) * W1 (ix2 (wrow 64 k (by omega)) j))
        + ∑ k : Fin 64, ea (ix2 e k) * W1 (ix2 (wrow 138 k (by omega)) j))
        + ∑ k : Fin 74, hd (ix2 e k) * W1 (ix2 (wrow 202 k (by omega)) j))
        + b1 (ix1 j)) 0

/-- The score of every edge: its hidden row against the one column of `W2`, plus `b2`. -/
def score (q ea : (⟨2, ![500000, 64]⟩ : Shape).Idx → EReal) (hs hd : (⟨2, ![500000, 74]⟩ : Shape).Idx → EReal)
    (W1 : (⟨2, ![276, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨1, ![500000]⟩ : Shape).Idx → EReal :=
  fun i => (∑ j : Fin 64, hidden q ea hs hd W1 b1 (i 0) j * W2 (ix2 j 0)) + b2 (ix1 0)

end Cert.EdgeScore

end
-- ==== Proof.EntryIdeal.lean ====
/-
  What the region's windows hold when it is entered, read back to the program's arguments.

  The lines before the region are a straight line of array operations, so each window's array is a term of the
  arguments: the query embeddings and the edge attributes padded with 3808 rows; the 74-wide node-feature table
  gathered at the edges' sources and at their destinations — the SAME stages, operation for operation, as the
  reference program computes — narrowed to bf16 (the identity on ideal values) and padded likewise; the four row groups
  of the first layer's weights; the two biases and the second layer's weights relaid as rows.  Read at an index: a padded
  array at one of its first 500000 rows is the unpadded array there; row group `o` of the weights at row `k` is the
  weights at row `o + k`; the relaid rows are the original vectors.
-/
import proofs.«173136_j52192442581252_2_alg».proof.Proof.HostIdeal
import proofs.«173136_j52192442581252_2_alg».proof.Proof.ReadPatched
import proofs.«173136_j52192442581252_2_alg».proof.Proof.LibStretch
import proofs.«173136_j52192442581252_2_alg».proof.Proof.ScoreSpec
import Idealize.ShloMosaic.Lib.KernelVsHost
import Idealize.ShloMosaic.Lib.Pipeline.Value
import Idealize.ShloMosaic.Lib.ValueIdx

set_option maxRecDepth 16384

noncomputable section

namespace Cert.KernelIdeal.Entry

open Cert.KernelIdeal Cert.KernelIdeal.Gen Cert.KernelIdeal.Host
open Idealize.ShloMosaic Idealize.ShloMosaic.TcCoe Idealize.ShloMosaic.ValueIdx
open Idealize.SL Idealize.SL.Sem
open Cert.EdgeScore (wrow)

variable (m : (ℓ : Loc nD τ sig) → Buf (Elt Ideal) ℓ)

/-- The node-feature table as a function of its six pieces: the node table, the topic signal and its four rounds of mean
    aggregation, joined along the feature axis. -/
def tableOf (a0 : FVec Ideal S50000x64 .f32) (a1 a2 a3 a4 a5 : FVec Ideal S50000x2 .f32) : FVec Ideal S50000x74 .f32 :=
  concatenate S50000x74 1 [⟨S50000x64, a0⟩, ⟨S50000x2, a1⟩, ⟨S50000x2, a2⟩, ⟨S50000x2, a3⟩, ⟨S50000x2, a4⟩, ⟨S50000x2, a5⟩] concatenates_S50000x64_S50000x2_S50000x2_S50000x2_S50000x2_S50000x2_S50000x74_d1

/-- The node-feature table's line: its result buffer holds the six operands' contents joined along the feature axis. -/
theorem table_result (F : Valuation τ sig (Elt Ideal)) (hxs hy) :
    (StableHlo.nary (τ := τ) ![main_v9, main_arg3, main_v28, main_v47, main_v66, main_v85] main_v86 (fun u => concatenate S50000x74 1 [⟨S50000x64, u 0⟩, ⟨S50000x2, u 1⟩, ⟨S50000x2, u 2⟩, ⟨S50000x2, u 3⟩, ⟨S50000x2, u 4⟩, ⟨S50000x2, u 5⟩] concatenates_S50000x64_S50000x2_S50000x2_S50000x2_S50000x2_S50000x2_S50000x74_d1) hxs hy).result F (no_index (Proc.devRef .tc main_v86))
      = tableOf (F (Proc.devRef .tc main_v9)) (F (Proc.devRef .tc main_arg3)) (F (Proc.devRef .tc main_v28)) (F (Proc.devRef .tc main_v47)) (F (Proc.devRef .tc main_v66)) (F (Proc.devRef .tc main_v85)) :=
  (StableHlo.nary_result _ _ _ hxs hy F).trans rfl

/-! ## Transports to and from a typed reference's buffer type

A module-local function's lines carry every value to its typed reference's buffer type and back; at a literal reference the
two types are the same, and the transport is the identity. -/

theorem ofBuf_main_v7 (h1 : main_v7.ty = ⟨S50000x1, .i1⟩) (h2 h3) (v : main_v7.ty.Contents (Elt Ideal)) :
    (StableHlo.TRef.of (sig := sig) (T := ⟨S50000x1, .i1⟩) main_v7 h1 h2 h3).ofBuf v = v := rfl
theorem ofBuf_main_v8 (h1 : main_v8.ty = ⟨S64, .f32⟩) (h2 h3) (v : main_v8.ty.Contents (Elt Ideal)) :
    (StableHlo.TRef.of (sig := sig) (T := ⟨S64, .f32⟩) main_v8 h1 h2 h3).ofBuf v = v := rfl
theorem ofBuf_main_arg0 (h1 : main_arg0.ty = ⟨S50000x64, .f32⟩) (h2 h3) (v : main_arg0.ty.Contents (Elt Ideal)) :
    (StableHlo.TRef.of (sig := sig) (T := ⟨S50000x64, .f32⟩) main_arg0 h1 h2 h3).ofBuf v = v := rfl
theorem ofBuf_main_c_28 (h1 : main_c_28.ty = ⟨S_, .i32⟩) (h2 h3) (v : main_c_28.ty.Contents (Elt Ideal)) :
    (StableHlo.TRef.of (sig := sig) (T := ⟨S_, .i32⟩) main_c_28 h1 h2 h3).ofBuf v = v := rfl
theorem ofBuf_main_c_29 (h1 : main_c_29.ty = ⟨S_, .i32⟩) (h2 h3) (v : main_c_29.ty.Contents (Elt Ideal)) :
    (StableHlo.TRef.of (sig := sig) (T := ⟨S_, .i32⟩) main_c_29 h1 h2 h3).ofBuf v = v := rfl
theorem ofBuf_main_c_30 (h1 : main_c_30.ty = ⟨S_, .i32⟩) (h2 h3) (v : main_c_30.ty.Contents (Elt Ideal)) :
    (StableHlo.TRef.of (sig := sig) (T := ⟨S_, .i32⟩) main_c_30 h1 h2 h3).ofBuf v = v := rfl
theorem ofBuf_main_c_31 (h1 : main_c_31.ty = ⟨S_, .i32⟩) (h2 h3) (v : main_c_31.ty.Contents (Elt Ideal)) :
    (StableHlo.TRef.of (sig := sig) (T := ⟨S_, .i32⟩) main_c_31 h1 h2 h3).ofBuf v = v := rfl
theorem ofBuf_main_arg4 (h1 : main_arg4.ty = ⟨S500000x64, .f32⟩) (h2 h3) (v : main_arg4.ty.Contents (Elt Ideal)) :
    (StableHlo.TRef.of (sig := sig) (T := ⟨S500000x64, .f32⟩) main_arg4 h1 h2 h3).ofBuf v = v := rfl
theorem ofBuf_main_arg2 (h1 : main_arg2.ty = ⟨S500000x64, .f32⟩) (h2 h3) (v : main_arg2.ty.Contents (Elt Ideal)) :
    (StableHlo.TRef.of (sig := sig) (T := ⟨S500000x64, .f32⟩) main_arg2 h1 h2 h3).ofBuf v = v := rfl
theorem ofBuf_main_v94 (h1 : main_v94.ty = ⟨S500000x74, .bf16⟩) (h2 h3) (v : main_v94.ty.Contents (Elt Ideal)) :
    (StableHlo.TRef.of (sig := sig) (T := ⟨S500000x74, .bf16⟩) main_v94 h1 h2 h3).ofBuf v = v := rfl
theorem ofBuf_main_v102 (h1 : main_v102.ty = ⟨S500000x74, .bf16⟩) (h2 h3) (v : main_v102.ty.Contents (Elt Ideal)) :
    (StableHlo.TRef.of (sig := sig) (T := ⟨S500000x74, .bf16⟩) main_v102 h1 h2 h3).ofBuf v = v := rfl
theorem toBuf_main_v9 (h1 : main_v9.ty = ⟨S50000x64, .f32⟩) (h2 h3) (v : (⟨S50000x64, .f32⟩ : BufTy).Contents (Elt Ideal)) :
    (StableHlo.TRef.of (sig := sig) (T := ⟨S50000x64, .f32⟩) main_v9 h1 h2 h3).toBuf v = v := rfl
theorem toBuf_main_v112 (h1 : main_v112.ty = ⟨S503808x64, .f32⟩) (h2 h3) (v : (⟨S503808x64, .f32⟩ : BufTy).Contents (Elt Ideal)) :
    (StableHlo.TRef.of (sig := sig) (T := ⟨S503808x64, .f32⟩) main_v112 h1 h2 h3).toBuf v = v := rfl
theorem toBuf_main_v114 (h1 : main_v114.ty = ⟨S503808x64, .f32⟩) (h2 h3) (v : (⟨S503808x64, .f32⟩ : BufTy).Contents (Elt Ideal)) :
    (StableHlo.TRef.of (sig := sig) (T := ⟨S503808x64, .f32⟩) main_v114 h1 h2 h3).toBuf v = v := rfl
theorem toBuf_main_v113 (h1 : main_v113.ty = ⟨S503808x74, .bf16⟩) (h2 h3) (v : (⟨S503808x74, .bf16⟩ : BufTy).Contents (Elt Ideal)) :
    (StableHlo.TRef.of (sig := sig) (T := ⟨S503808x74, .bf16⟩) main_v113 h1 h2 h3).toBuf v = v := rfl
theorem toBuf_main_v115 (h1 : main_v115.ty = ⟨S503808x74, .bf16⟩) (h2 h3) (v : (⟨S503808x74, .bf16⟩ : BufTy).Contents (Elt Ideal)) :
    (StableHlo.TRef.of (sig := sig) (T := ⟨S503808x74, .bf16⟩) main_v115 h1 h2 h3).toBuf v = v := rfl

/-- One pass over the lines before the region: every line's result at its own buffer is its function of its operands'
    contents, and any other buffer keeps what it held. -/
local macro "entry_read" : tactic => `(tactic| (
  simp only [lead, hostOps0, hostOps0_1, hostOps0_2, hostOps0_3, hostOps0_4, hostOps0_5, hostOps0_6, hostOps0_7, hostOps0_8, hostOps0_9, List.flatten_cons, List.flatten_nil, List.append_nil, List.cons_append, List.nil_append]
  simp (disch := decide) only [StableHlo.after_cons, StableHlo.after_nil, Cert.KernelIdeal.Entry.table_result, StableHlo.nullary_result', StableHlo.unary_result', StableHlo.binary_result', StableHlo.ternary_result', StableHlo.quaternary_result', StableHlo.reshape_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']))

/-! ## The arrays as terms of the arguments -/

set_option maxHeartbeats 4000000 in
theorem v112_eq (c : Dev nD) : (V m c main_v112 : FVec Ideal S503808x64 .f32) = pad S503808x64 ![0, 0] ![3808, 0] ![0, 0] ((m ((c : Thread nD τ).loc main_arg4)) : FVec Ideal S500000x64 .f32) (sitofp (F := Ideal) .f32 (constantI S_ 32 0#32)) pads_S500000x64_S503808x64_038080_000 h_S_ := by
  show StableHlo.after (List.flatten lead) (fun b => m (c, b)) (Proc.devRef .tc main_v112) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v114_eq (c : Dev nD) : (V m c main_v114 : FVec Ideal S503808x64 .f32) = pad S503808x64 ![0, 0] ![3808, 0] ![0, 0] ((m ((c : Thread nD τ).loc main_arg2)) : FVec Ideal S500000x64 .f32) (sitofp (F := Ideal) .f32 (constantI S_ 32 0#32)) pads_S500000x64_S503808x64_038080_000 h_S_ := by
  show StableHlo.after (List.flatten lead) (fun b => m (c, b)) (Proc.devRef .tc main_v114) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 8000000 in
theorem v113_eq (c : Dev nD) : (V m c main_v113 : FVec Ideal S503808x74 .bf16) = pad S503808x74 ![0, 0] ![3808, 0] ![0, 0]
    (truncf (F := Ideal) .bf16 (Cert.ReferenceIdeal.ReadP.val_main_v93 (F := Ideal) (m ((c : Thread nD τ).loc main_arg0)) (m ((c : Thread nD τ).loc main_arg1)) (m ((c : Thread nD τ).loc main_arg3)) (m ((c : Thread nD τ).loc main_arg5))) bitsLt_bf16_f32)
    (sitofp (F := Ideal) .bf16 (constantI S_ 32 0#32)) pads_S500000x74_S503808x74_038080_000 h_S_ := by
  show StableHlo.after (List.flatten lead) (fun b => m (c, b)) (Proc.devRef .tc main_v113) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 8000000 in
theorem v115_eq (c : Dev nD) : (V m c main_v115 : FVec Ideal S503808x74 .bf16) = pad S503808x74 ![0, 0] ![3808, 0] ![0, 0]
    (truncf (F := Ideal) .bf16 (Cert.ReferenceIdeal.ReadP.val_main_v100 (F := Ideal) (m ((c : Thread nD τ).loc main_arg0)) (m ((c : Thread nD τ).loc main_arg1)) (m ((c : Thread nD τ).loc main_arg3)) (m ((c : Thread nD τ).loc main_arg5))) bitsLt_bf16_f32)
    (sitofp (F := Ideal) .bf16 (constantI S_ 32 0#32)) pads_S500000x74_S503808x74_038080_000 h_S_ := by
  show StableHlo.after (List.flatten lead) (fun b => m (c, b)) (Proc.devRef .tc main_v115) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v104_eq (c : Dev nD) : (V m c main_v104 : FVec Ideal S64x64 .bf16) = extractStridedSlice S64x64 ![0, 0] (truncf (F := Ideal) .bf16 ((m ((c : Thread nD τ).loc main_arg6)) : FVec Ideal S276x64 .f32) bitsLt_bf16_f32) slices_S276x64_S64x64_0_0 := by
  show StableHlo.after (List.flatten lead) (fun b => m (c, b)) (Proc.devRef .tc main_v104) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v105_eq (c : Dev nD) : (V m c main_v105 : FVec Ideal S74x64 .bf16) = extractStridedSlice S74x64 ![64, 0] (truncf (F := Ideal) .bf16 ((m ((c : Thread nD τ).loc main_arg6)) : FVec Ideal S276x64 .f32) bitsLt_bf16_f32) slices_S276x64_S74x64_64_0 := by
  show StableHlo.after (List.flatten lead) (fun b => m (c, b)) (Proc.devRef .tc main_v105) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v106_eq (c : Dev nD) : (V m c main_v106 : FVec Ideal S64x64 .bf16) = extractStridedSlice S64x64 ![138, 0] (truncf (F := Ideal) .bf16 ((m ((c : Thread nD τ).loc main_arg6)) : FVec Ideal S276x64 .f32) bitsLt_bf16_f32) slices_S276x64_S64x64_138_0 := by
  show StableHlo.after (List.flatten lead) (fun b => m (c, b)) (Proc.devRef .tc main_v106) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v107_eq (c : Dev nD) : (V m c main_v107 : FVec Ideal S74x64 .bf16) = extractStridedSlice S74x64 ![202, 0] (truncf (F := Ideal) .bf16 ((m ((c : Thread nD τ).loc main_arg6)) : FVec Ideal S276x64 .f32) bitsLt_bf16_f32) slices_S276x64_S74x64_202_0 := by
  show StableHlo.after (List.flatten lead) (fun b => m (c, b)) (Proc.devRef .tc main_v107) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v108_eq (c : Dev nD) : V m c main_v108 = shapeCast S1x64 (m ((c : Thread nD τ).loc main_arg7)) shapeCasts_S64_S1x64 := by
  show StableHlo.after (List.flatten lead) (fun b => m (c, b)) (Proc.devRef .tc main_v108) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v110_eq (c : Dev nD) : V m c main_v110 = broadcastInDim S1x64 ![1] bcast_S64_S1x64_1 (shapeCast S64 (m ((c : Thread nD τ).loc main_arg8)) shapeCasts_S64x1_S64) := by
  show StableHlo.after (List.flatten lead) (fun b => m (c, b)) (Proc.devRef .tc main_v110) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

set_option maxHeartbeats 4000000 in
theorem v111_eq (c : Dev nD) : V m c main_v111 = shapeCast S1x1 (m ((c : Thread nD τ).loc main_arg9)) shapeCasts_S1_S1x1 := by
  show StableHlo.after (List.flatten lead) (fun b => m (c, b)) (Proc.devRef .tc main_v111) = _
  entry_read <;> (try simp only [Cert.LibStretch.ofBuf_toBuf, Cert.LibStretch.toBuf_ofBuf, Cert.KernelIdeal.Entry.ofBuf_main_v7, Cert.KernelIdeal.Entry.ofBuf_main_v8, Cert.KernelIdeal.Entry.ofBuf_main_arg0, Cert.KernelIdeal.Entry.ofBuf_main_c_28, Cert.KernelIdeal.Entry.ofBuf_main_c_29, Cert.KernelIdeal.Entry.ofBuf_main_c_30, Cert.KernelIdeal.Entry.ofBuf_main_c_31, Cert.KernelIdeal.Entry.ofBuf_main_arg4, Cert.KernelIdeal.Entry.ofBuf_main_arg2, Cert.KernelIdeal.Entry.ofBuf_main_v94, Cert.KernelIdeal.Entry.ofBuf_main_v102, Cert.KernelIdeal.Entry.toBuf_main_v9, Cert.KernelIdeal.Entry.toBuf_main_v112, Cert.KernelIdeal.Entry.toBuf_main_v114, Cert.KernelIdeal.Entry.toBuf_main_v113, Cert.KernelIdeal.Entry.toBuf_main_v115]) <;> rfl

/-! ## Read at an index -/

/-- Edge `e` as a row of the padded arrays. -/
abbrev up (e : Fin 500000) : Fin 503808 := ⟨e.val, by have := e.isLt; omega⟩

/-- A padded 64-wide array at one of the first 500000 rows is the unpadded array there. -/
theorem pad64_row (x : FVec Ideal S500000x64 .f32) (v : FVec Ideal S_ .f32) (e : Fin 500000) (k : Fin 64) :
    pad S503808x64 ![0, 0] ![3808, 0] ![0, 0] x v pads_S500000x64_S503808x64_038080_000 h_S_ (ix2 (up e) k) = x (ix2 e k) :=
  pad_apply_of_inside ![0, 0] ![3808, 0] ![0, 0] x v pads_S500000x64_S503808x64_038080_000 h_S_ (ix2 (up e) k) (ix2 e k) fun a => by
    match a with
    | ⟨0, _⟩ => show e.val = 0 + e.val * (0 + 1); omega
    | ⟨1, _⟩ => show k.val = 0 + k.val * (0 + 1); omega

/-- The same of a padded 74-wide array. -/
theorem pad74_row (x : FVec Ideal S500000x74 .bf16) (v : FVec Ideal S_ .bf16) (e : Fin 500000) (k : Fin 74) :
    pad S503808x74 ![0, 0] ![3808, 0] ![0, 0] x v pads_S500000x74_S503808x74_038080_000 h_S_ (ix2 (up e) k) = x (ix2 e k) :=
  pad_apply_of_inside ![0, 0] ![3808, 0] ![0, 0] x v pads_S500000x74_S503808x74_038080_000 h_S_ (ix2 (up e) k) (ix2 e k) fun a => by
    match a with
    | ⟨0, _⟩ => show e.val = 0 + e.val * (0 + 1); omega
    | ⟨1, _⟩ => show k.val = 0 + k.val * (0 + 1); omega

theorem rd_q (c : Dev nD) (e : Fin 500000) (k : Fin 64) : V m c main_v112 (ix2 (up e) k) = (m ((c : Thread nD τ).loc main_arg4)) (ix2 e k) := by
  rw [v112_eq]; exact pad64_row _ _ e k
theorem rd_ea (c : Dev nD) (e : Fin 500000) (k : Fin 64) : V m c main_v114 (ix2 (up e) k) = (m ((c : Thread nD τ).loc main_arg2)) (ix2 e k) := by
  rw [v114_eq]; exact pad64_row _ _ e k
theorem rd_hs (c : Dev nD) (e : Fin 500000) (k : Fin 74) :
    V m c main_v113 (ix2 (up e) k) = Cert.ReferenceIdeal.ReadP.val_main_v93 (F := Ideal) (m ((c : Thread nD τ).loc main_arg0)) (m ((c : Thread nD τ).loc main_arg1)) (m ((c : Thread nD τ).loc main_arg3)) (m ((c : Thread nD τ).loc main_arg5)) (ix2 e k) := by
  rw [v113_eq]; exact pad74_row _ _ e k
theorem rd_hd (c : Dev nD) (e : Fin 500000) (k : Fin 74) :
    V m c main_v115 (ix2 (up e) k) = Cert.ReferenceIdeal.ReadP.val_main_v100 (F := Ideal) (m ((c : Thread nD τ).loc main_arg0)) (m ((c : Thread nD τ).loc main_arg1)) (m ((c : Thread nD τ).loc main_arg3)) (m ((c : Thread nD τ).loc main_arg5)) (ix2 e k) := by
  rw [v115_eq]; exact pad74_row _ _ e k

/-- Row `k` of the weights' row group starting at 0 is row `0 + k` of the weights. -/
theorem rd_wq (c : Dev nD) (k : Fin 64) (j : Fin 64) : V m c main_v104 (ix2 k j) = (m ((c : Thread nD τ).loc main_arg6)) (ix2 (wrow 0 k (by omega)) j) := by
  rw [v104_eq]
  exact extractStridedSlice_apply ![0, 0] (truncf (F := Ideal) .bf16 ((m ((c : Thread nD τ).loc main_arg6)) : FVec Ideal S276x64 .f32) bitsLt_bf16_f32) slices_S276x64_S64x64_0_0 (ix2 k j) (ix2 (wrow 0 k (by omega)) j) fun a => by
    match a with
    | ⟨0, _⟩ => show 0 + k.val = 0 + k.val; rfl
    | ⟨1, _⟩ => show j.val = 0 + j.val; omega
/-- Row `k` of the weights' row group starting at 64 is row `64 + k` of the weights. -/
theorem rd_ws (c : Dev nD) (k : Fin 74) (j : Fin 64) : V m c main_v105 (ix2 k j) = (m ((c : Thread nD τ).loc main_arg6)) (ix2 (wrow 64 k (by omega)) j) := by
  rw [v105_eq]
  exact extractStridedSlice_apply ![64, 0] (truncf (F := Ideal) .bf16 ((m ((c : Thread nD τ).loc main_arg6)) : FVec Ideal S276x64 .f32) bitsLt_bf16_f32) slices_S276x64_S74x64_64_0 (ix2 k j) (ix2 (wrow 64 k (by omega)) j) fun a => by
    match a with
    | ⟨0, _⟩ => show 64 + k.val = 64 + k.val; rfl
    | ⟨1, _⟩ => show j.val = 0 + j.val; omega
/-- Row `k` of the weights' row group starting at 138 is row `138 + k` of the weights. -/
theorem rd_we (c : Dev nD) (k : Fin 64) (j : Fin 64) : V m c main_v106 (ix2 k j) = (m ((c : Thread nD τ).loc main_arg6)) (ix2 (wrow 138 k (by omega)) j) := by
  rw [v106_eq]
  exact extractStridedSlice_apply ![138, 0] (truncf (F := Ideal) .bf16 ((m ((c : Thread nD τ).loc main_arg6)) : FVec Ideal S276x64 .f32) bitsLt_bf16_f32) slices_S276x64_S64x64_138_0 (ix2 k j) (ix2 (wrow 138 k (by omega)) j) fun a => by
    match a with
    | ⟨0, _⟩ => show 138 + k.val = 138 + k.val; rfl
    | ⟨1, _⟩ => show j.val = 0 + j.val; omega
/-- Row `k` of the weights' row group starting at 202 is row `202 + k` of the weights. -/
theorem rd_wd (c : Dev nD) (k : Fin 74) (j : Fin 64) : V m c main_v107 (ix2 k j) = (m ((c : Thread nD τ).loc main_arg6)) (ix2 (wrow 202 k (by omega)) j) := by
  rw [v107_eq]
  exact extractStridedSlice_apply ![202, 0] (truncf (F := Ideal) .bf16 ((m ((c : Thread nD τ).loc main_arg6)) : FVec Ideal S276x64 .f32) bitsLt_bf16_f32) slices_S276x64_S74x64_202_0 (ix2 k j) (ix2 (wrow 202 k (by omega)) j) fun a => by
    match a with
    | ⟨0, _⟩ => show 202 + k.val = 202 + k.val; rfl
    | ⟨1, _⟩ => show j.val = 0 + j.val; omega

/-- The first layer's bias as a row. -/
theorem rd_b1 (c : Dev nD) (j : Fin 64) : V m c main_v108 (ix2 (0 : Fin 1) j) = (m ((c : Thread nD τ).loc main_arg7)) (ix1 j) := by
  rw [v108_eq]
  exact shapeCast_apply _ shapeCasts_S64_S1x64 (ix2 (0 : Fin 1) j) (ix1 j) (by
    rw [Shape.rowMajor_val_two, Shape.rowMajor_val_one]; show j.val = 0 * 64 + j.val; omega)

/-- The second layer's one column as a row. -/
theorem rd_w2 (c : Dev nD) (j : Fin 64) : V m c main_v110 (ix2 (0 : Fin 1) j) = (m ((c : Thread nD τ).loc main_arg8)) (ix2 j (0 : Fin 1)) := by
  rw [v110_eq]
  refine (broadcastInDim_apply ![1] bcast_S64_S1x64_1 _ (ix2 (0 : Fin 1) j) (ix1 j) fun a => ?_).trans ?_
  · match a with
    | ⟨0, _⟩ => show j.val = if (64 : Nat) = 1 then 0 else j.val; rw [if_neg (by decide)]
  · exact shapeCast_apply _ shapeCasts_S64x1_S64 (ix1 j) (ix2 j (0 : Fin 1)) (by
      rw [Shape.rowMajor_val_two, Shape.rowMajor_val_one]; show j.val * 1 + 0 = j.val; omega)

/-- The second layer's bias as a 1 × 1 block. -/
theorem rd_b2 (c : Dev nD) : V m c main_v111 (ix2 (0 : Fin 1) (0 : Fin 1)) = (m ((c : Thread nD τ).loc main_arg9)) (ix1 (0 : Fin 1)) := by
  rw [v111_eq]
  exact shapeCast_apply _ shapeCasts_S1_S1x1 (ix2 (0 : Fin 1) (0 : Fin 1)) (ix1 (0 : Fin 1)) (by
    rw [Shape.rowMajor_val_two, Shape.rowMajor_val_one]; rfl)

end Cert.KernelIdeal.Entry

end
-- ==== Proof.ScoreIdeal.lean ====
/-
  The idealized kernel's result as the edge scores of its arguments.

  After the region the program keeps the first 500000 rows of the padded 503808 × 1 result and drops the unit axis.
  The padded result is, row by row, the score computed from that row of the four padded edge-indexed arrays and the
  whole weight and bias arrays; at a row below 500000 those are the arguments' rows and the reference's two gathered
  node-feature tables; so entry `e` of the result is the score of edge `e`.
-/
import proofs.«173136_j52192442581252_2_alg».proof.Proof.BlocksIdeal
import proofs.«173136_j52192442581252_2_alg».proof.Proof.EntryIdeal

set_option maxRecDepth 16384

noncomputable section

namespace Cert.KernelIdeal.Score

open Cert.KernelIdeal Cert.KernelIdeal.Gen Cert.KernelIdeal.Host Cert.KernelIdeal.Body Cert.KernelIdeal.Run
open Cert.KernelIdeal.Blocks Cert.KernelIdeal.Entry
open Idealize.ShloMosaic Idealize.ShloMosaic.TcCoe Idealize.ShloMosaic.ValueIdx Idealize.ShloMosaic.StableHlo
open Idealize.SL Idealize.SL.Sem
open Cert.EdgeScore (wrow)

/-- Padded row `up e` scored from eleven arrays that agree, at that row and in the weights, with an edge-indexed
    quadruple, a 276-row weight matrix, two biases and a weight column, is the score of edge `e` from those. -/
theorem rows_at_edge (Q E : FVec Ideal S503808x64 .f32) (Hs Hd : FVec Ideal S503808x74 .bf16) (wq we : FVec Ideal S64x64 .bf16)
    (ws wd : FVec Ideal S74x64 .bf16) (b1 w2 : FVec Ideal S1x64 .f32) (b2 : FVec Ideal S1x1 .f32)
    (q ea : (⟨2, ![500000, 64]⟩ : Shape).Idx → EReal) (hs hd : (⟨2, ![500000, 74]⟩ : Shape).Idx → EReal)
    (W1 : (⟨2, ![276, 64]⟩ : Shape).Idx → EReal) (c1 : (⟨1, ![64]⟩ : Shape).Idx → EReal)
    (W2 : (⟨2, ![64, 1]⟩ : Shape).Idx → EReal) (c2 : (⟨1, ![1]⟩ : Shape).Idx → EReal) (e : Fin 500000)
    (hQ : ∀ k : Fin 64, Q (ix2 (up e) k) = q (ix2 e k)) (hE : ∀ k : Fin 64, E (ix2 (up e) k) = ea (ix2 e k))
    (hHs : ∀ k : Fin 74, Hs (ix2 (up e) k) = hs (ix2 e k)) (hHd : ∀ k : Fin 74, Hd (ix2 (up e) k) = hd (ix2 e k))
    (hwq : ∀ (k : Fin 64) (j : Fin 64), wq (ix2 k j) = W1 (ix2 (wrow 0 k (by omega)) j))
    (hws : ∀ (k : Fin 74) (j : Fin 64), ws (ix2 k j) = W1 (ix2 (wrow 64 k (by omega)) j))
    (hwe : ∀ (k : Fin 64) (j : Fin 64), we (ix2 k j) = W1 (ix2 (wrow 138 k (by omega)) j))
    (hwd : ∀ (k : Fin 74) (j : Fin 64), wd (ix2 k j) = W1 (ix2 (wrow 202 k (by omega)) j))
    (hb1 : ∀ j : Fin 64, b1 (ix2 (0 : Fin 1) j) = c1 (ix1 j)) (hw2 : ∀ j : Fin 64, w2 (ix2 (0 : Fin 1) j) = W2 (ix2 j (0 : Fin 1)))
    (hb2 : b2 (ix2 (0 : Fin 1) (0 : Fin 1)) = c2 (ix1 (0 : Fin 1))) :
    rows Q E Hs Hd wq we ws wd b1 w2 b2 (ix2 (up e) (0 : Fin 1)) = Cert.EdgeScore.score q ea hs hd W1 c1 W2 c2 (ix1 e) := by
  show (∑ j : Fin 64,
      max (((((∑ k : Fin 64, Q (ix2 (up e) k) * wq (ix2 k j)) + ∑ k : Fin 74, Hs (ix2 (up e) k) * ws (ix2 k j))
            + ∑ k : Fin 64, E (ix2 (up e) k) * we (ix2 k j)) + ∑ k : Fin 74, Hd (ix2 (up e) k) * wd (ix2 k j))
            + b1 (ix2 (0 : Fin 1) j)) 0
        * w2 (ix2 (0 : Fin 1) j))
    + b2 (ix2 (0 : Fin 1) (0 : Fin 1)) = _
  simp only [hQ, hE, hHs, hHd, hwq, hws, hwe, hwd, hb1, hw2, hb2]
  rfl

variable (m : (ℓ : Loc nD τ sig) → Buf (Elt Ideal) ℓ) (ρ : Dev nD → PrngReg)

/-- The two gathered node-feature tables, as the reference program's stages of the arguments. -/
abbrev hsrc (c : Dev nD) := Cert.ReferenceIdeal.ReadP.val_main_v93 (F := Ideal) (m ((c : Thread nD τ).loc main_arg0)) (m ((c : Thread nD τ).loc main_arg1)) (m ((c : Thread nD τ).loc main_arg3)) (m ((c : Thread nD τ).loc main_arg5))
abbrev hdst (c : Dev nD) := Cert.ReferenceIdeal.ReadP.val_main_v100 (F := Ideal) (m ((c : Thread nD τ).loc main_arg0)) (m ((c : Thread nD τ).loc main_arg1)) (m ((c : Thread nD τ).loc main_arg3)) (m ((c : Thread nD τ).loc main_arg5))

/-- The edge scores of core `c`'s arguments. -/
abbrev scores (c : Dev nD) : (⟨1, ![500000]⟩ : Shape).Idx → EReal :=
  Cert.EdgeScore.score (m ((c : Thread nD τ).loc main_arg4)) (m ((c : Thread nD τ).loc main_arg2)) (hsrc m c) (hdst m c) (m ((c : Thread nD τ).loc main_arg6)) (m ((c : Thread nD τ).loc main_arg7)) (m ((c : Thread nD τ).loc main_arg8)) (m ((c : Thread nD τ).loc main_arg9))

/-- The two closing lines from ANY contents of the buffers: the result buffer ends holding the first 500000 rows of what the
    padded result's buffer held, the unit axis dropped. -/
theorem tail_read (W : Valuation τ sig (Elt Ideal)) :
    StableHlo.after (hostOps1 (F := Ideal)) W (Proc.devRef .tc main_v118)
      = shapeCast S500000 (extractStridedSlice S500000x1 ![0, 0] (W (Proc.devRef .tc main_v116) : FVec Ideal S503808x1 .f32) slices_S503808x1_S500000x1_0_0) shapeCasts_S500000x1_S500000 := by
  after_results
  rfl

set_option maxHeartbeats 1000000 in
/-- The result buffer after the two closing lines: the padded result cut to 500000 rows, the unit axis dropped. -/
theorem tail_eq (c : Dev nD) :
    Pipeline.afterTail₀ cfgs (dats m) 0 (V0 m) [hostOps1] c main_v118
      = shapeCast S500000 (extractStridedSlice S500000x1 ![0, 0] (result m c) slices_S503808x1_S500000x1_0_0) shapeCasts_S500000x1_S500000 := by
  unfold Pipeline.afterTail₀
  show StableHlo.after hostOps1 _ (Proc.devRef .tc main_v118) = _
  refine (tail_read _).trans ?_
  refine congrArg (fun X : FVec Ideal S503808x1 .f32 => shapeCast S500000 (extractStridedSlice S500000x1 ![0, 0] X slices_S503808x1_S500000x1_0_0) shapeCasts_S500000x1_S500000) ?_
  exact (Pipeline.withArrays_arr spec0 launch0.win.arr_inj c _ _ 11).trans (final m c)

/-- The first 500000 rows of a 503808 × 1 array, the unit axis dropped, at edge `e`: the array at row `e`. -/
theorem cut_apply (R : FVec Ideal S503808x1 .f32) (e : Fin 500000) :
    shapeCast S500000 (extractStridedSlice S500000x1 ![0, 0] R slices_S503808x1_S500000x1_0_0) shapeCasts_S500000x1_S500000 (ix1 e)
      = R (ix2 (up e) (0 : Fin 1)) := by
  refine (shapeCast_apply _ shapeCasts_S500000x1_S500000 (ix1 e) (ix2 e (0 : Fin 1)) (by
    rw [Shape.rowMajor_val_two, Shape.rowMajor_val_one]; show e.val * 1 + 0 = e.val; omega)).trans ?_
  exact extractStridedSlice_apply ![0, 0] R slices_S503808x1_S500000x1_0_0 (ix2 e (0 : Fin 1)) (ix2 (up e) (0 : Fin 1)) fun a => by
    match a with
    | ⟨0, _⟩ => show e.val = 0 + e.val; omega
    | ⟨1, _⟩ => show (0 : Nat) = 0 + 0; rfl

/-- Two arrays over the 500000 edges that agree at every edge are equal. -/
theorem ext_edges {f g : (⟨1, ![500000]⟩ : Shape).Idx → EReal} (h : ∀ e : Fin 500000, f (ix1 e) = g (ix1 e)) : f = g :=
  funext fun i => by rw [eq_ix1 i]; exact h _

/-- Entry `e` of the padded result is the score of edge `e`. -/
theorem result_at (c : Dev nD) (e : Fin 500000) : result m c (ix2 (up e) (0 : Fin 1)) = scores m c (ix1 e) :=
  rows_at_edge (V m c main_v112) (V m c main_v114) (V m c main_v113) (V m c main_v115) (V m c main_v104) (V m c main_v106)
    (V m c main_v105) (V m c main_v107) (V m c main_v108) (V m c main_v110) (V m c main_v111)
    (m ((c : Thread nD τ).loc main_arg4)) (m ((c : Thread nD τ).loc main_arg2)) (hsrc m c) (hdst m c) (m ((c : Thread nD τ).loc main_arg6)) (m ((c : Thread nD τ).loc main_arg7)) (m ((c : Thread nD τ).loc main_arg8)) (m ((c : Thread nD τ).loc main_arg9)) e
    (fun k => rd_q m c e k) (fun k => rd_ea m c e k) (fun k => rd_hs m c e k) (fun k => rd_hd m c e k)
    (fun k j => rd_wq m c k j) (fun k j => rd_ws m c k j) (fun k j => rd_we m c k j) (fun k j => rd_wd m c k j)
    (fun j => rd_b1 m c j) (fun j => rd_w2 m c j) (rd_b2 m c)

/-- The result buffer after the closing lines holds the edge scores. -/
theorem result_eq (c : Dev nD) : Pipeline.afterTail₀ cfgs (dats m) 0 (V0 m) [hostOps1] c main_v118 = scores m c :=
  (tail_eq m c).trans (ext_edges fun e => (cut_apply (result m c) e).trans (result_at m c e))

/-- The run, read: every weakly fair execution ends with the result buffer at the edge scores of the arguments and the
    arguments unchanged. -/
theorem run : θ_run defs (onTc (τ := τ) (main (F := Ideal))) ⟨m, fun _ => 0, ρ⟩ (fun r => ∀ c : Dev nD,
      r.2.mem ((c.tc : Thread nD τ).loc main_v118) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v118 (Pipeline.mem_restRefs_of main_v118 (by decide) (by decide))).trans (result_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

end Cert.KernelIdeal.Score

end
-- ==== Proof.RefJoins.lean ====
/-
  The reference program's two joins read at their operands, and its typed references' transports.

  The node-feature table is six arrays joined along the feature axis (the node table with its zero rows replaced, the
  topic signal, and its four rounds of mean aggregation); each edge's input row is four arrays joined likewise (the query
  embedding, the source features, the edge attributes, the destination features).  The result buffer of each of these
  two lines holds the join of what its operands' buffers hold.
-/
import proofs.«173136_j52192442581252_2_alg».proof.Proof.Gen.ReferenceIdeal
import Idealize.ShloMosaic.Lib.StableHlo.Run

noncomputable section

namespace Cert.ReferenceIdeal.Joins

open Cert.ReferenceIdeal Cert.ReferenceIdeal.Gen Idealize.ShloMosaic Idealize.ShloMosaic.TcCoe Idealize.ShloMosaic.StableHlo

variable {F' : FTy → Type} [FloatOps F']

/-- The node-feature table as a function of its six pieces: the node table, the topic signal and its four rounds of mean
    aggregation, joined along the feature axis. -/
def tableOf (a0 : FVec F' S50000x64 .f32) (a1 a2 a3 a4 a5 : FVec F' S50000x2 .f32) : FVec F' S50000x74 .f32 :=
  concatenate S50000x74 1 [⟨S50000x64, a0⟩, ⟨S50000x2, a1⟩, ⟨S50000x2, a2⟩, ⟨S50000x2, a3⟩, ⟨S50000x2, a4⟩, ⟨S50000x2, a5⟩] concatenates_S50000x64_S50000x2_S50000x2_S50000x2_S50000x2_S50000x2_S50000x74_d1

/-- An edge's input row as a function of its four pieces, joined along the feature axis. -/
def rowsOf (q : FVec F' S500000x64 .f32) (hs : FVec F' S500000x74 .f32) (ea : FVec F' S500000x64 .f32) (hd : FVec F' S500000x74 .f32) : FVec F' S500000x276 .f32 :=
  concatenate S500000x276 1 [⟨S500000x64, q⟩, ⟨S500000x74, hs⟩, ⟨S500000x64, ea⟩, ⟨S500000x74, hd⟩] concatenates_S500000x64_S500000x74_S500000x64_S500000x74_S500000x276_d1

/-- The node-feature table's line. -/
theorem table_result (F : Valuation τ sig (Elt F')) (hxs hy) :
    (nary (τ := τ) ![main_v9, main_arg3, main_v28, main_v47, main_v66, main_v85] main_v86 (fun u => concatenate S50000x74 1 [⟨S50000x64, u 0⟩, ⟨S50000x2, u 1⟩, ⟨S50000x2, u 2⟩, ⟨S50000x2, u 3⟩, ⟨S50000x2, u 4⟩, ⟨S50000x2, u 5⟩] concatenates_S50000x64_S50000x2_S50000x2_S50000x2_S50000x2_S50000x2_S50000x74_d1) hxs hy).result F (no_index (Proc.devRef .tc main_v86))
      = tableOf (F (Proc.devRef .tc main_v9)) (F (Proc.devRef .tc main_arg3)) (F (Proc.devRef .tc main_v28)) (F (Proc.devRef .tc main_v47)) (F (Proc.devRef .tc main_v66)) (F (Proc.devRef .tc main_v85)) :=
  (nary_result _ _ _ hxs hy F).trans rfl

/-- The edge rows' line. -/
theorem rows_result (F : Valuation τ sig (Elt F')) (hxs hy) :
    (nary (τ := τ) ![main_arg4, main_v93, main_arg2, main_v100] main_v101 (fun u => concatenate S500000x276 1 [⟨S500000x64, u 0⟩, ⟨S500000x74, u 1⟩, ⟨S500000x64, u 2⟩, ⟨S500000x74, u 3⟩] concatenates_S500000x64_S500000x74_S500000x64_S500000x74_S500000x276_d1) hxs hy).result F (no_index (Proc.devRef .tc main_v101))
      = rowsOf (F (Proc.devRef .tc main_arg4)) (F (Proc.devRef .tc main_v93)) (F (Proc.devRef .tc main_arg2)) (F (Proc.devRef .tc main_v100)) :=
  (nary_result _ _ _ hxs hy F).trans rfl

/-! ## Transports to and from a typed reference's buffer type

The lines of the two module-local functions (the replacement of zero rows, the positive part) carry every value to its typed
reference's buffer type and back; at a literal reference the two types are the same, and the transport is the identity. -/

theorem ofBuf_main_v7 (h1 : main_v7.ty = ⟨S50000x1, .i1⟩) (h2 h3) (v : main_v7.ty.Contents (Elt F')) :
    (TRef.of (sig := sig) (T := ⟨S50000x1, .i1⟩) main_v7 h1 h2 h3).ofBuf v = v := rfl
theorem ofBuf_main_v8 (h1 : main_v8.ty = ⟨S64, .f32⟩) (h2 h3) (v : main_v8.ty.Contents (Elt F')) :
    (TRef.of (sig := sig) (T := ⟨S64, .f32⟩) main_v8 h1 h2 h3).ofBuf v = v := rfl
theorem ofBuf_main_arg0 (h1 : main_arg0.ty = ⟨S50000x64, .f32⟩) (h2 h3) (v : main_arg0.ty.Contents (Elt F')) :
    (TRef.of (sig := sig) (T := ⟨S50000x64, .f32⟩) main_arg0 h1 h2 h3).ofBuf v = v := rfl
theorem ofBuf_main_v105 (h1 : main_v105.ty = ⟨S500000x64, .f32⟩) (h2 h3) (v : main_v105.ty.Contents (Elt F')) :
    (TRef.of (sig := sig) (T := ⟨S500000x64, .f32⟩) main_v105 h1 h2 h3).ofBuf v = v := rfl
theorem toBuf_main_v9 (h1 : main_v9.ty = ⟨S50000x64, .f32⟩) (h2 h3) (v : (⟨S50000x64, .f32⟩ : BufTy).Contents (Elt F')) :
    (TRef.of (sig := sig) (T := ⟨S50000x64, .f32⟩) main_v9 h1 h2 h3).toBuf v = v := rfl
theorem toBuf_main_v106 (h1 : main_v106.ty = ⟨S500000x64, .f32⟩) (h2 h3) (v : (⟨S500000x64, .f32⟩ : BufTy).Contents (Elt F')) :
    (TRef.of (sig := sig) (T := ⟨S500000x64, .f32⟩) main_v106 h1 h2 h3).toBuf v = v := rfl

end Cert.ReferenceIdeal.Joins

end
-- ==== Proof.LibSumGroups.lean ====
/-
  A finite sum split into four consecutive groups.

  In any commutative additive monoid, a sum over the first `n` naturals, where `n = a + b + c + d`, is the sum of
  its first `a` terms, plus the next `b`, plus the next `c`, plus the last `d`, each group indexed from zero and
  the four partial sums added left to right. Only the monoid laws are used: nothing is assumed of the terms
  (no finiteness, no distributivity), so the statement holds on the extended reals as it stands.
-/
import Mathlib

namespace Cert.SumGroups

open scoped BigOperators

/-- A sum over `Fin n` with `n = a + b + c + d` is the four consecutive groups' sums, added left to right:
    the group of width `a` starts at `0`, the one of width `b` at `a`, the one of width `c` at `a + b` and the one
    of width `d` at `a + b + c`. -/
theorem sum_four_groups {M : Type*} [AddCommMonoid M] {a b c d n : ℕ} (hn : a + b + c + d = n) (f : Fin n → M) :
    ∑ k : Fin n, f k =
      ((∑ k : Fin a, f ⟨k.val, by have := k.isLt; omega⟩
        + ∑ k : Fin b, f ⟨a + k.val, by have := k.isLt; omega⟩)
        + ∑ k : Fin c, f ⟨a + b + k.val, by have := k.isLt; omega⟩)
        + ∑ k : Fin d, f ⟨a + b + c + k.val, by have := k.isLt; omega⟩ := by
  subst hn
  rw [Fin.sum_univ_add, Fin.sum_univ_add, Fin.sum_univ_add]
  rfl

end Cert.SumGroups
-- ==== Proof.RefScore.lean ====
/-
  The reference program computes the edge scorer's specification.

  The last stages of the reference lay the four feature groups of an edge side by side in one row of width
  276 = 64 + 74 + 64 + 74 (the query embedding, the node features gathered at the source, the edge attributes, the node
  features gathered at the destination), multiply that row by the first layer's weights, add the bias, take the
  positive part, multiply by the second layer's single column and add its bias. Read index by index, the product of
  the joined row with the weights is ONE sum of 276 terms; the specification states it as the four groups' partial sums
  added left to right. The two agree because a finite sum in a commutative additive monoid splits into consecutive
  groups: only associativity and commutativity of addition on the extended reals are used, never distributivity,
  so nothing is assumed about the entries being finite. The two gathered feature blocks are carried as opaque
  arrays: nothing here looks inside them.
-/
import proofs.«173136_j52192442581252_2_alg».proof.Proof.ReadPatched
import proofs.«173136_j52192442581252_2_alg».proof.Proof.ScoreSpec
import proofs.«173136_j52192442581252_2_alg».proof.Proof.LibSumGroups
import Idealize.ShloMosaic.Lib.Pipeline.Value
import Idealize.ShloMosaic.Lib.ValueIdx
import Idealize.ShloMosaic.PureOps.Ideal

noncomputable section

namespace Cert.RefScore

open Cert.ReferenceIdeal Cert.ReferenceIdeal.ReadP Cert.EdgeScore Idealize.ShloMosaic Idealize.ShloMosaic.ValueIdx

/-! ## The joined row, read inside each of its four pieces

Column `o + k` of the joined row, for `k` below the width of the piece that starts at column `o`, is column `k` of
that piece; the row coordinate is untouched. -/

section Joined
variable {α : Type}

/-- Columns 0–63 of the joined row are the query embedding. -/
theorem joined_q (q ea : S500000x64.Idx → α) (hs hd : S500000x74.Idx → α)
    (h : Shape.Concatenates [S500000x64, S500000x74, S500000x64, S500000x74] S500000x276 1)
    (e : Fin 500000) (k : Fin 64) :
    concatenate S500000x276 1 [⟨S500000x64, q⟩, ⟨S500000x74, hs⟩, ⟨S500000x64, ea⟩, ⟨S500000x74, hd⟩] h (ix2 e (wrow 0 k (by omega))) = q (ix2 e k) :=
  concatenate_apply_piece (1 : Fin S500000x276.rank) [⟨S500000x64, q⟩, ⟨S500000x74, hs⟩, ⟨S500000x64, ea⟩, ⟨S500000x74, hd⟩] h (ix2 e (wrow 0 k (by omega)))
    0 (by show _ < 4; omega) S500000x64 q rfl rfl 0 rfl (ix2 e k)
    (fun b hb => match b, hb with | ⟨0, _⟩, _ => rfl | ⟨1, _⟩, hb => absurd rfl hb) rfl

/-- Columns 64–137 of the joined row are the features gathered at the source. -/
theorem joined_hs (q ea : S500000x64.Idx → α) (hs hd : S500000x74.Idx → α)
    (h : Shape.Concatenates [S500000x64, S500000x74, S500000x64, S500000x74] S500000x276 1)
    (e : Fin 500000) (k : Fin 74) :
    concatenate S500000x276 1 [⟨S500000x64, q⟩, ⟨S500000x74, hs⟩, ⟨S500000x64, ea⟩, ⟨S500000x74, hd⟩] h (ix2 e (wrow 64 k (by omega))) = hs (ix2 e k) :=
  concatenate_apply_piece (1 : Fin S500000x276.rank) [⟨S500000x64, q⟩, ⟨S500000x74, hs⟩, ⟨S500000x64, ea⟩, ⟨S500000x74, hd⟩] h (ix2 e (wrow 64 k (by omega)))
    1 (by show _ < 4; omega) S500000x74 hs rfl rfl 64 rfl (ix2 e k)
    (fun b hb => match b, hb with | ⟨0, _⟩, _ => rfl | ⟨1, _⟩, hb => absurd rfl hb) rfl

/-- Columns 138–201 of the joined row are the edge attributes. -/
theorem joined_ea (q ea : S500000x64.Idx → α) (hs hd : S500000x74.Idx → α)
    (h : Shape.Concatenates [S500000x64, S500000x74, S500000x64, S500000x74] S500000x276 1)
    (e : Fin 500000) (k : Fin 64) :
    concatenate S500000x276 1 [⟨S500000x64, q⟩, ⟨S500000x74, hs⟩, ⟨S500000x64, ea⟩, ⟨S500000x74, hd⟩] h (ix2 e (wrow 138 k (by omega))) = ea (ix2 e k) :=
  concatenate_apply_piece (1 : Fin S500000x276.rank) [⟨S500000x64, q⟩, ⟨S500000x74, hs⟩, ⟨S500000x64, ea⟩, ⟨S500000x74, hd⟩] h (ix2 e (wrow 138 k (by omega)))
    2 (by show _ < 4; omega) S500000x64 ea rfl rfl 138 rfl (ix2 e k)
    (fun b hb => match b, hb with | ⟨0, _⟩, _ => rfl | ⟨1, _⟩, hb => absurd rfl hb) rfl

/-- Columns 202–275 of the joined row are the features gathered at the destination. -/
theorem joined_hd (q ea : S500000x64.Idx → α) (hs hd : S500000x74.Idx → α)
    (h : Shape.Concatenates [S500000x64, S500000x74, S500000x64, S500000x74] S500000x276 1)
    (e : Fin 500000) (k : Fin 74) :
    concatenate S500000x276 1 [⟨S500000x64, q⟩, ⟨S500000x74, hs⟩, ⟨S500000x64, ea⟩, ⟨S500000x74, hd⟩] h (ix2 e (wrow 202 k (by omega))) = hd (ix2 e k) :=
  concatenate_apply_piece (1 : Fin S500000x276.rank) [⟨S500000x64, q⟩, ⟨S500000x74, hs⟩, ⟨S500000x64, ea⟩, ⟨S500000x74, hd⟩] h (ix2 e (wrow 202 k (by omega)))
    3 (by show _ < 4; omega) S500000x74 hd rfl rfl 202 rfl (ix2 e k)
    (fun b hb => match b, hb with | ⟨0, _⟩, _ => rfl | ⟨1, _⟩, hb => absurd rfl hb) rfl

end Joined

/-- The reference's joined row at a column of its first piece. -/
theorem row_q (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal))
    (e : Fin 500000) (k : Fin 64) :
    val_main_v101 (F := Ideal) x0 x1 x2 x3 x4 x5 (ix2 e (wrow 0 k (by omega))) = x4 (ix2 e k) := by
  unfold val_main_v101
  exact joined_q x4 x2 _ _ _ e k

/-- The reference's joined row at a column of its second piece. -/
theorem row_hs (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal))
    (e : Fin 500000) (k : Fin 74) :
    val_main_v101 (F := Ideal) x0 x1 x2 x3 x4 x5 (ix2 e (wrow 64 k (by omega))) = (val_main_v93 (F := Ideal) x0 x1 x3 x5) (ix2 e k) := by
  unfold val_main_v101
  exact joined_hs x4 x2 _ _ _ e k

/-- The reference's joined row at a column of its third piece. -/
theorem row_ea (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal))
    (e : Fin 500000) (k : Fin 64) :
    val_main_v101 (F := Ideal) x0 x1 x2 x3 x4 x5 (ix2 e (wrow 138 k (by omega))) = x2 (ix2 e k) := by
  unfold val_main_v101
  exact joined_ea x4 x2 _ _ _ e k

/-- The reference's joined row at a column of its fourth piece. -/
theorem row_hd (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal))
    (e : Fin 500000) (k : Fin 74) :
    val_main_v101 (F := Ideal) x0 x1 x2 x3 x4 x5 (ix2 e (wrow 202 k (by omega))) = (val_main_v100 (F := Ideal) x0 x1 x3 x5) (ix2 e k) := by
  unfold val_main_v101
  exact joined_hd x4 x2 _ _ _ e k

/-! ## Where each stage reads its operands

The index functions of the reference's stages, at an index given by its coordinates. -/

/-- The first product reads the joined row of edge `e` at column `r`. -/
theorem lidx_first (e : Fin 500000) (j : Fin 64) (r : Fin 276) : lidx_main_v102 (ix2 e j) r = ix2 e r :=
  funext fun a => match a with | ⟨0, _⟩ => rfl | ⟨1, _⟩ => rfl

/-- The first product reads the weights at row `r`, column `j`. -/
theorem ridx_first (e : Fin 500000) (j : Fin 64) (r : Fin 276) : ridx_main_v102 (ix2 e j) r = ix2 r j :=
  funext fun a => match a with | ⟨0, _⟩ => rfl | ⟨1, _⟩ => rfl

/-- The result's entry `e` is the entry `(e, 0)` of the one-column array before the final reshape. -/
theorem idx_result (e : Fin 500000) : idx_main_v111 (ix1 e) = ix2 e 0 :=
  funext fun a => match a with | ⟨0, _⟩ => Fin.ext (Nat.div_one _) | ⟨1, _⟩ => rfl

/-- The second product reads the hidden row of edge `e` at unit `j`. -/
theorem lidx_second (e : Fin 500000) (j : Fin 64) : lidx_main_v107 (ix2 e 0) j = ix2 e j :=
  funext fun a => match a with | ⟨0, _⟩ => rfl | ⟨1, _⟩ => rfl

/-- The second product reads the second layer's column at row `j`. -/
theorem ridx_second (e : Fin 500000) (j : Fin 64) : ridx_main_v107 (ix2 e 0) j = ix2 j 0 :=
  funext fun a => match a with | ⟨0, _⟩ => rfl | ⟨1, _⟩ => rfl

/-- The first layer's bias, broadcast over the edges, at edge `e` and unit `j` is its entry `j`. -/
theorem bias_first (x7 : (⟨S64, .f32⟩ : BufTy).Contents (Elt Ideal)) (e : Fin 500000) (j : Fin 64) :
    val_main_v104 (F := Ideal) x7 (ix2 e j) = x7 (ix1 j) := by
  rw [val_main_v104_apply, val_main_v103_apply]
  exact congrArg x7 (funext fun a => match a with | ⟨0, _⟩ => rfl)

/-- The second layer's bias, broadcast over the edges, is its single entry. -/
theorem bias_second (x9 : (⟨S1, .f32⟩ : BufTy).Contents (Elt Ideal)) (e : Fin 500000) :
    val_main_v109 (F := Ideal) x9 (ix2 e 0) = x9 (ix1 0) := by
  rw [val_main_v109_apply, val_main_v108_apply]
  exact congrArg x9 (funext fun a => match a with | ⟨0, _⟩ => rfl)

/-- The constant the positive part is taken against is zero. -/
theorem relu_floor (e : Fin 500000) (j : Fin 64) : val_main_call1_v0 (F := Ideal) (ix2 e j) = 0 := by
  rw [val_main_call1_v0_apply, val_main_call1_cst_apply, Ideal.ofBits_def, Ideal.ofBits_zero_f32]

/-! ## One term of the 276-term sum, inside each group -/

/-- A term of the first group: the query embedding against rows 0–63 of the weights. -/
theorem term_q (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal)) (x6 : (⟨S276x64, .f32⟩ : BufTy).Contents (Elt Ideal))
    (e : Fin 500000) (j : Fin 64) (k : Fin 64) (r : Fin 276) (hr : r = wrow 0 k (by omega)) :
    val_main_v101 (F := Ideal) x0 x1 x2 x3 x4 x5 (lidx_main_v102 (ix2 e j) r) * x6 (ridx_main_v102 (ix2 e j) r)
      = x4 (ix2 e k) * x6 (ix2 (wrow 0 k (by omega)) j) := by
  subst hr
  rw [lidx_first, ridx_first, row_q]

/-- A term of the second group: the source's features against rows 64–137 of the weights. -/
theorem term_hs (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal)) (x6 : (⟨S276x64, .f32⟩ : BufTy).Contents (Elt Ideal))
    (e : Fin 500000) (j : Fin 64) (k : Fin 74) (r : Fin 276) (hr : r = wrow 64 k (by omega)) :
    val_main_v101 (F := Ideal) x0 x1 x2 x3 x4 x5 (lidx_main_v102 (ix2 e j) r) * x6 (ridx_main_v102 (ix2 e j) r)
      = (val_main_v93 (F := Ideal) x0 x1 x3 x5) (ix2 e k) * x6 (ix2 (wrow 64 k (by omega)) j) := by
  subst hr
  rw [lidx_first, ridx_first, row_hs]

/-- A term of the third group: the edge attributes against rows 138–201 of the weights. -/
theorem term_ea (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal)) (x6 : (⟨S276x64, .f32⟩ : BufTy).Contents (Elt Ideal))
    (e : Fin 500000) (j : Fin 64) (k : Fin 64) (r : Fin 276) (hr : r = wrow 138 k (by omega)) :
    val_main_v101 (F := Ideal) x0 x1 x2 x3 x4 x5 (lidx_main_v102 (ix2 e j) r) * x6 (ridx_main_v102 (ix2 e j) r)
      = x2 (ix2 e k) * x6 (ix2 (wrow 138 k (by omega)) j) := by
  subst hr
  rw [lidx_first, ridx_first, row_ea]

/-- A term of the fourth group: the destination's features against rows 202–275 of the weights. -/
theorem term_hd (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal)) (x6 : (⟨S276x64, .f32⟩ : BufTy).Contents (Elt Ideal))
    (e : Fin 500000) (j : Fin 64) (k : Fin 74) (r : Fin 276) (hr : r = wrow 202 k (by omega)) :
    val_main_v101 (F := Ideal) x0 x1 x2 x3 x4 x5 (lidx_main_v102 (ix2 e j) r) * x6 (ridx_main_v102 (ix2 e j) r)
      = (val_main_v100 (F := Ideal) x0 x1 x3 x5) (ix2 e k) * x6 (ix2 (wrow 202 k (by omega)) j) := by
  subst hr
  rw [lidx_first, ridx_first, row_hd]

/-! ## The hidden layer and the score -/

/-- The reference's hidden layer (after the positive part) at edge `e`, unit `j` is the specification's hidden
    unit: the 276-term sum splits into the four groups' sums, added left to right. -/
theorem hidden_at (x0 : (⟨S50000x64, .f32⟩ : BufTy).Contents (Elt Ideal)) (x1 : (⟨S2x500000, .i32⟩ : BufTy).Contents (Elt Ideal)) (x2 : (⟨S500000x64, .f32⟩ : BufTy).Contents (Elt Ideal)) (x3 : (⟨S50000x2, .f32⟩ : BufTy).Contents (Elt Ideal)) (x4 : (⟨S500000x64, .f32⟩ : BufTy).Contents (Elt Ideal)) (x5 : (⟨S1x64, .f32⟩ : BufTy).Contents (Elt Ideal)) (x6 : (⟨S276x64, .f32⟩ : BufTy).Contents (Elt Ideal)) (x7 : (⟨S64, .f32⟩ : BufTy).Contents (Elt Ideal))
    (e : Fin 500000) (j : Fin 64) :
    val_main_v106 (F := Ideal) x0 x1 x2 x3 x4 x5 x6 x7 (ix2 e j)
      = Cert.EdgeScore.hidden x4 x2 (val_main_v93 (F := Ideal) x0 x1 x3 x5) (val_main_v100 (F := Ideal) x0 x1 x3 x5) x6 x7 e j := by
  rw [val_main_v106_apply, val_main_v105_apply, val_main_v102_apply, bias_first, relu_floor,
    Ideal.maximumf_def, Ideal.addf_def]
  unfold Cert.EdgeScore.hidden
  refine congrArg (fun s : EReal => max (s + x7 (ix1 j)) 0) ?_
  refine (Cert.SumGroups.sum_four_groups (a := 64) (b := 74) (c := 64) (d := 74) rfl _).trans ?_
  refine congrArg₂ (· + ·) (congrArg₂ (· + ·) (congrArg₂ (· + ·) ?_ ?_) ?_) ?_
  · exact Finset.sum_congr rfl fun k _ => term_q x0 x1 x2 x3 x4 x5 x6 e j k _ (Fin.ext (Nat.zero_add _).symm)
  · exact Finset.sum_congr rfl fun k _ => term_hs x0 x1 x2 x3 x4 x5 x6 e j k _ rfl
  · exact Finset.sum_congr rfl fun k _ => term_ea x0 x1 x2 x3 x4 x5 x6 e j k _ rfl
  · exact Finset.sum_congr rfl fun k _ => term_hd x0 x1 x2 x3 x4 x5 x6 e j k _ rfl

/-- The specification's score at edge `e`, spelt out. -/
theorem score_at (q ea : (⟨2, ![500000, 64]⟩ : Shape).Idx → EReal) (hs hd : (⟨2, ![500000, 74]⟩ : Shape).Idx → EReal)
    (W1 : (⟨2, ![276, 64]⟩ : Shape).Idx → EReal) (b1 : (⟨1, ![64]⟩ : Shape).Idx → EReal)
    (W2 : (⟨2, ![64, 1]⟩ : Shape).Idx → EReal) (b2 : (⟨1, ![1]⟩ : Shape).Idx → EReal) (e : Fin 500000) :
    score q ea hs hd W1 b1 W2 b2 (ix1 e) = (∑ j : Fin 64, Cert.EdgeScore.hidden q ea hs hd W1 b1 e j * W2 (ix2 j 0)) + b2 (ix1 0) := rfl

/-- **The reference is the specification**: its result is the score of every edge, computed from the query
    embedding, the edge attributes, the two gathered feature blocks (whatever they are) and the two layers'
    weights and biases. -/
theorem ref_is_score
    (x0 : (⟨S50000x64, .f32⟩ : BufTy).Contents (Elt Ideal)) (x1 : (⟨S2x500000, .i32⟩ : BufTy).Contents (Elt Ideal))
    (x2 : (⟨S500000x64, .f32⟩ : BufTy).Contents (Elt Ideal)) (x3 : (⟨S50000x2, .f32⟩ : BufTy).Contents (Elt Ideal))
    (x4 : (⟨S500000x64, .f32⟩ : BufTy).Contents (Elt Ideal)) (x5 : (⟨S1x64, .f32⟩ : BufTy).Contents (Elt Ideal))
    (x6 : (⟨S276x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal)) :
    Cert.ReferenceIdeal.ReadP.val_main_v111 (F := Ideal) x0 x1 x2 x3 x4 x5 x6 x7 x8 x9
      = Cert.EdgeScore.score x4 x2 (Cert.ReferenceIdeal.ReadP.val_main_v93 (F := Ideal) x0 x1 x3 x5)
          (Cert.ReferenceIdeal.ReadP.val_main_v100 (F := Ideal) x0 x1 x3 x5) x6 x7 x8 x9 := by
  funext i
  obtain ⟨e, rfl⟩ : ∃ e : Fin 500000, i = ix1 e := ⟨i 0, eq_ix1 i⟩
  rw [score_at, val_main_v111_apply, idx_result, val_main_v110_apply, val_main_v107_apply, bias_second, Ideal.addf_def]
  refine congrArg (fun s : EReal => s + x9 (ix1 0)) (Finset.sum_congr rfl fun j _ => ?_)
  rw [lidx_second, ridx_second, hidden_at]

end Cert.RefScore

end
-- ==== Proof.lean ====
/-
  The edge scorer of a message-passing retriever, as a tiled kernel and as plain array code, compute the same scores over
  the extended reals.

  Both programs start with the same host computation — the node table with its all-zero rows replaced, two rounds of mean
  aggregation of the topic signal along the edges and two against them, the 74-wide node-feature table, and its rows
  gathered at every edge's source and destination.  The reference then joins, per edge, the query embedding, the source
  features, the edge attributes and the destination features into a 276-wide row, multiplies by the first layer's
  weights, adds the bias, takes the positive part, multiplies by the second layer's one column and adds its bias.  The
  kernel instead takes 4096 edges at a time, multiplies each of the four groups by its own rows of the weights and adds
  the four products, then the bias and the positive part, and forms the last product as a lane sum against the weight
  row; it pads the edges to 503808 rows first and cuts the result back.  A sum over the 276 joined columns is the sum of
  the four groups' sums — commutativity and associativity of addition only, so nothing here needs the inputs to be
  finite — and narrowing to bf16 is the identity on ideal values, so the two results agree entry by entry.

  The modules: ScoreSpec (the scores, stated once), RefScore over ReadPatched (the reference's result is the scores),
  BlockScore (one block of the kernel's body is the scores of its rows), Host / Body / Run (the kernel's run at any
  values: the frames of both printed kernels), Blocks, Entry and Score (the idealized kernel's result is the scores), and
  RunPatched (the reference's run).  The idealization rewrote no operation, so its conjunct is trivial.
-/
import proofs.«173136_j52192442581252_2_alg».proof.Defs
import proofs.«173136_j52192442581252_2_alg».proof.Proof.Gen.Kernel
import proofs.«173136_j52192442581252_2_alg».proof.Proof.Gen.Kernel.Skeleton
import proofs.«173136_j52192442581252_2_alg».proof.Proof.Gen.Kernel.Launch
import proofs.«173136_j52192442581252_2_alg».proof.Proof.Gen.Kernel.Points
import proofs.«173136_j52192442581252_2_alg».proof.Proof.Gen.KernelIdeal
import proofs.«173136_j52192442581252_2_alg».proof.Proof.Gen.KernelIdeal.Skeleton
import proofs.«173136_j52192442581252_2_alg».proof.Proof.Gen.KernelIdeal.Launch
import proofs.«173136_j52192442581252_2_alg».proof.Proof.Gen.KernelIdeal.Points
import proofs.«173136_j52192442581252_2_alg».proof.Proof.Gen.ReferenceIdeal
import proofs.«173136_j52192442581252_2_alg».proof.Proof.Gen.Pre_finite_inputs
import proofs.«173136_j52192442581252_2_alg».proof.Proof.RunBits
import proofs.«173136_j52192442581252_2_alg».proof.Proof.ScoreIdeal
import proofs.«173136_j52192442581252_2_alg».proof.Proof.RunPatched
import proofs.«173136_j52192442581252_2_alg».proof.Proof.RefScore
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- The reference is a straight line of array operations: it runs, and its arguments are written by no line. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's result term is its last stage. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v111 m' c
      = Cert.ReferenceIdeal.ReadP.val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) := by
  unfold Cert.ReferenceIdeal.ValueP.res_main_v111; rfl

/-- From memories agreeing on the arguments both idealized programs end with the edge scores of those arguments. -/
theorem algebraic : Cert.algebraic_KernelIdeal_ReferenceIdeal := by
  intro m ρ m' ρ' _ hagree
  refine ⟨fun c => Cert.KernelIdeal.Score.scores m c, Cert.KernelIdeal.Score.run m ρ, ?_⟩
  refine (θ_run Cert.ReferenceIdeal.defs _ _).mono (fun _ h c => ⟨?_, (h c).2⟩) (Cert.ReferenceIdeal.ValueP.run (F := Ideal) m' ρ')
  obtain ⟨e0, e1, e2, e3, e4, e5, e6, e7, e8, e9⟩ := hagree c
  rw [(h c).1, ref_result, Cert.RefScore.ref_is_score, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
